-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x2 : Shape := ⟨2, ![4194304, 2]⟩
abbrev S1024x1024 : Shape := ⟨2, ![1024, 1024]⟩
abbrev S2x2 : Shape := ⟨2, ![2, 2]⟩
abbrev S_ : Shape := ⟨0, ![]⟩

class Facts : Prop where
  bcast_S_S4194304x2 : S_.BroadcastsInDim S4194304x2 (![] : Fin 0 → Fin S4194304x2.rank)
  reducesTo_S4194304x2_S_d0_1 : S4194304x2.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2x2 : S_.BroadcastsInDim S2x2 (![] : Fin 0 → Fin S2x2.rank)
  reducesTo_S2x2_S_d0_1 : S2x2.ReducesTo [0, 1] S_

variable [Facts]

def fn {F : FTy → Type} [FloatOps F] (main_arg0 : FVec F S4194304x2 .f32) (main_arg1 : FVec F S1024x1024 .f32) (main_arg2 : FVec F S2x2 .f32) : IVec S_ 1 :=
  let main_v0 : FVec F S4194304x2 .f32 := Host.absf main_arg0
  let main_cst : FVec F S_ .f32 := constant S_ .f32 0x7F800000#32
  let main_v1 : FVec F S4194304x2 .f32 := broadcastInDim S4194304x2 ![] bcast_S_S4194304x2 main_cst
  let main_v2 : IVec S4194304x2 1 := cmpf .olt main_v0 main_v1
  let main_c : IVec S_ 1 := constantI S_ 1 1#1
  let main_v3 : IVec S_ 1 := (fun x v => Host.reduce IntOp.andi x v reducesTo_S4194304x2_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2x2 .f32 := Host.absf main_arg2
  let main_cst_2 : FVec F S_ .f32 := constant S_ .f32 0x7F800000#32
  let main_v10 : FVec F S2x2 .f32 := broadcastInDim S2x2 ![] bcast_S_S2x2 main_cst_2
  let main_v11 : IVec S2x2 1 := cmpf .olt main_v9 main_v10
  let main_c_3 : IVec S_ 1 := constantI S_ 1 1#1
  let main_v12 : IVec S_ 1 := (fun x v => Host.reduce IntOp.andi x v reducesTo_S2x2_S_d0_1 h_S_) main_v11 main_c_3
  let main_v13 : IVec S_ 1 := andi main_v8 main_v12
  main_v13
-- ==== Kernel.lean ====
abbrev S4194304x2 : Shape := ⟨2, ![4194304, 2]⟩
abbrev S1024x1024 : Shape := ⟨2, ![1024, 1024]⟩
abbrev S2x2 : Shape := ⟨2, ![2, 2]⟩
abbrev S4194304x1 : Shape := ⟨2, ![4194304, 1]⟩
abbrev S1024x2 : Shape := ⟨2, ![1024, 2]⟩
abbrev S1024x1 : Shape := ⟨2, ![1024, 1]⟩
abbrev S1024 : Shape := ⟨1, ![1024]⟩
abbrev S1x1 : Shape := ⟨2, ![1, 1]⟩
abbrev S1x4194304x1 : Shape := ⟨3, ![1, 4194304, 1]⟩

abbrev nBuf : Space → Nat
  | .hbm => 6
  | .vmem => 6
  | .smem => 0
  | _ => 0

abbrev bufTy : (tb : Table) → Fin (tcTables nBuf tb) → BufTy
  | .hbm, ⟨0, _⟩ => ⟨S4194304x2, .f32⟩
  | .hbm, ⟨1, _⟩ => ⟨S1024x1024, .f32⟩
  | .hbm, ⟨2, _⟩ => ⟨S2x2, .f32⟩
  | .hbm, ⟨3, _⟩ => ⟨S1024x1024, .bf16⟩
  | .hbm, ⟨4, _⟩ => ⟨S4194304x1, .f32⟩
  | .hbm, ⟨5, _⟩ => ⟨S1x4194304x1, .f32⟩
  | .local _ .vmem, ⟨0, _⟩ => ⟨S1024x2, .f32⟩
  | .local _ .vmem, ⟨1, _⟩ => ⟨S1024x2, .f32⟩
  | .local _ .vmem, ⟨2, _⟩ => ⟨S2x2, .f32⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | _, _ => ⟨S4194304x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4096], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S1024x2_S1024x1_0_0 : ∀ a, (![0, 0] : Fin 2 → Nat) a + S1024x1.size a ≤ S1024x2.size a
  h_S1024x1 : 0 < S1024x1.numel
  shapeCasts_S1024x1_S1024 : S1024x1.ShapeCasts S1024
  inb_S1024x2_S1024x1_0_1 : ∀ a, (![0, 1] : Fin 2 → Nat) a + S1024x1.size a ≤ S1024x2.size a
  inb_S2x2_S1x1_0_0 : ∀ a, (![0, 0] : Fin 2 → Nat) a + S1x1.size a ≤ S2x2.size a
  h_S1x1 : 0 < S1x1.numel
  inpos_S1x1_p0_0 : ∀ a, (![0, 0] : Fin 2 → Nat) a < S1x1.size a
  inb_S2x2_S1x1_0_1 : ∀ a, (![0, 1] : Fin 2 → Nat) a + S1x1.size a ≤ S2x2.size a
  inb_S2x2_S1x1_1_0 : ∀ a, (![1, 0] : Fin 2 → Nat) a + S1x1.size a ≤ S2x2.size a
  inb_S2x2_S1x1_1_1 : ∀ a, (![1, 1] : Fin 2 → Nat) a + S1x1.size a ≤ S2x2.size a
  iota_S1024x1024_d1_w32 : S1024x1024.Iotas .tc 32 [1]
  shapeCasts_S1024_S1024x1 : S1024.ShapeCasts S1024x1
  broadcasts_S1024x1_S1024x1024 : S1024x1.Broadcasts S1024x1024
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  inb_S1024x1_S1024x1_0_0 : ∀ a, (![0, 0] : Fin 2 → Nat) a + S1024x1.size a ≤ S1024x1.size a
  bcast_S4194304x1_S1x4194304x1_1_2 : S4194304x1.BroadcastsInDim S1x4194304x1 (![1, 2] : Fin 2 → Fin S1x4194304x1.rank)
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S4194304x2.size a
  hwx0_0 : ∀ i : grid0.Coords, EltTy.bits .f32 = 32 ∨ (Rect.block (s := S4194304x2) S1024x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2.size a ≤ S2x2.size a
  hwx0_1 : ∀ i : grid0.Coords, EltTy.bits .f32 = 32 ∨ (Rect.block (s := S2x2) S2x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4194304x1.size a
  hwx0_3 : ∀ i : grid0.Coords, EltTy.bits .f32 = 32 ∨ (Rect.block (s := S4194304x1) S1024x1.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x2 : Shape := ⟨2, ![4194304, 2]⟩
abbrev S1024x1024 : Shape := ⟨2, ![1024, 1024]⟩
abbrev S2x2 : Shape := ⟨2, ![2, 2]⟩
abbrev S_ : Shape := ⟨0, ![]⟩
abbrev S4194304x1 : Shape := ⟨2, ![4194304, 1]⟩
abbrev S4194304 : Shape := ⟨1, ![4194304]⟩
abbrev S1x1 : Shape := ⟨2, ![1, 1]⟩
abbrev S1x4194304x1 : Shape := ⟨3, ![1, 4194304, 1]⟩

abbrev nBuf : Space → Nat
  | .hbm => 171
  | .vmem => 0
  | .smem => 0
  | _ => 0

abbrev hbmTy0_0 (i : Nat) : BufTy := match i % 128 with
  | 0 => ⟨S4194304x2, .f32⟩
  | 1 => ⟨S1024x1024, .f32⟩
  | 2 => ⟨S2x2, .f32⟩
  | 3 => ⟨S_, .f32⟩
  | 4 => ⟨S_, .f32⟩
  | 5 => ⟨S_, .f32⟩
  | 6 => ⟨S4194304x1, .f32⟩
  | 7 => ⟨S4194304, .f32⟩
  | 8 => ⟨S1x1, .f32⟩
  | 9 => ⟨S_, .f32⟩
  | 10 => ⟨S4194304, .f32⟩
  | 11 => ⟨S4194304, .f32⟩
  | 12 => ⟨S4194304, .f32⟩
  | 13 => ⟨S4194304, .f32⟩
  | 14 => ⟨S1x1, .f32⟩
  | 15 => ⟨S_, .f32⟩
  | 16 => ⟨S1x1, .f32⟩
  | 17 => ⟨S_, .f32⟩
  | 18 => ⟨S_, .f32⟩
  | 19 => ⟨S4194304, .f32⟩
  | 20 => ⟨S4194304, .f32⟩
  | 21 => ⟨S_, .f32⟩
  | 22 => ⟨S_, .f32⟩
  | 23 => ⟨S_, .f32⟩
  | 24 => ⟨S4194304x1, .f32⟩
  | 25 => ⟨S4194304, .f32⟩
  | 26 => ⟨S1x1, .f32⟩
  | 27 => ⟨S_, .f32⟩
  | 28 => ⟨S4194304, .f32⟩
  | 29 => ⟨S4194304, .f32⟩
  | 30 => ⟨S4194304, .f32⟩
  | 31 => ⟨S4194304, .f32⟩
  | 32 => ⟨S1x1, .f32⟩
  | 33 => ⟨S_, .f32⟩
  | 34 => ⟨S1x1, .f32⟩
  | 35 => ⟨S_, .f32⟩
  | 36 => ⟨S_, .f32⟩
  | 37 => ⟨S4194304, .f32⟩
  | 38 => ⟨S4194304, .f32⟩
  | 39 => ⟨S4194304, .f32⟩
  | 40 => ⟨S_, .f32⟩
  | 41 => ⟨S_, .f32⟩
  | 42 => ⟨S_, .f32⟩
  | 43 => ⟨S4194304, .f32⟩
  | 44 => ⟨S4194304, .f32⟩
  | 45 => ⟨S_, .f32⟩
  | 46 => ⟨S4194304, .f32⟩
  | 47 => ⟨S4194304, .f32⟩
  | 48 => ⟨S4194304, .f32⟩
  | 49 => ⟨S_, .f32⟩
  | 50 => ⟨S_, .f32⟩
  | 51 => ⟨S_, .f32⟩
  | 52 => ⟨S4194304, .f32⟩
  | 53 => ⟨S4194304, .f32⟩
  | 54 => ⟨S_, .f32⟩
  | 55 => ⟨S4194304, .f32⟩
  | 56 => ⟨S4194304, .f32⟩
  | 57 => ⟨S4194304, .i32⟩
  | 58 => ⟨S4194304, .f32⟩
  | 59 => ⟨S_, .f32⟩
  | 60 => ⟨S_, .f32⟩
  | 61 => ⟨S_, .f32⟩
  | 62 => ⟨S4194304, .f32⟩
  | 63 => ⟨S4194304, .f32⟩
  | 64 => ⟨S_, .f32⟩
  | 65 => ⟨S4194304, .f32⟩
  | 66 => ⟨S4194304, .f32⟩
  | 67 => ⟨S4194304, .f32⟩
  | 68 => ⟨S_, .f32⟩
  | 69 => ⟨S_, .f32⟩
  | 70 => ⟨S_, .f32⟩
  | 71 => ⟨S4194304, .f32⟩
  | 72 => ⟨S4194304, .f32⟩
  | 73 => ⟨S_, .f32⟩
  | 74 => ⟨S4194304, .f32⟩
  | 75 => ⟨S4194304, .f32⟩
  | 76 => ⟨S4194304, .i32⟩
  | 77 => ⟨S_, .i32⟩
  | 78 => ⟨S4194304, .i32⟩
  | 79 => ⟨S4194304, .i1⟩
  | 80 => ⟨S_, .i32⟩
  | 81 => ⟨S4194304, .i32⟩
  | 82 => ⟨S4194304, .i32⟩
  | 83 => ⟨S4194304, .i32⟩
  | 84 => ⟨S_, .i32⟩
  | 85 => ⟨S4194304, .i32⟩
  | 86 => ⟨S4194304, .i1⟩
  | 87 => ⟨S_, .i32⟩
  | 88 => ⟨S4194304, .i32⟩
  | 89 => ⟨S4194304, .i32⟩
  | 90 => ⟨S4194304, .i32⟩
  | 91 => ⟨S4194304x1, .i32⟩
  | 92 => ⟨S4194304x1, .i32⟩
  | 93 => ⟨S4194304x2, .i32⟩
  | 94 => ⟨S4194304, .f32⟩
  | 95 => ⟨S_, .i32⟩
  | 96 => ⟨S4194304, .i32⟩
  | 97 => ⟨S4194304, .i32⟩
  | 98 => ⟨S_, .i32⟩
  | 99 => ⟨S4194304, .i32⟩
  | 100 => ⟨S4194304, .i1⟩
  | 101 => ⟨S_, .i32⟩
  | 102 => ⟨S4194304, .i32⟩
  | 103 => ⟨S4194304, .i32⟩
  | 104 => ⟨S4194304, .i32⟩
  | 105 => ⟨S_, .i32⟩
  | 106 => ⟨S4194304, .i32⟩
  | 107 => ⟨S4194304, .i1⟩
  | 108 => ⟨S_, .i32⟩
  | 109 => ⟨S4194304, .i32⟩
  | 110 => ⟨S4194304, .i32⟩
  | 111 => ⟨S4194304, .i32⟩
  | 112 => ⟨S4194304x1, .i32⟩
  | 113 => ⟨S4194304x1, .i32⟩
  | 114 => ⟨S4194304x2, .i32⟩
  | 115 => ⟨S4194304, .f32⟩
  | 116 => ⟨S_, .i32⟩
  | 117 => ⟨S4194304, .i32⟩
  | 118 => ⟨S4194304, .i32⟩
  | 119 => ⟨S_, .i32⟩
  | 120 => ⟨S4194304, .i32⟩
  | 121 => ⟨S4194304, .i1⟩
  | 122 => ⟨S_, .i32⟩
  | 123 => ⟨S4194304, .i32⟩
  | 124 => ⟨S4194304, .i32⟩
  | 125 => ⟨S4194304, .i32⟩
  | 126 => ⟨S_, .i32⟩
  | 127 => ⟨S4194304, .i32⟩
  | _ => ⟨S4194304x2, .f32⟩

abbrev hbmTy0_1 (i : Nat) : BufTy := match i % 128 with
  | 0 => ⟨S4194304, .i1⟩
  | 1 => ⟨S_, .i32⟩
  | 2 => ⟨S4194304, .i32⟩
  | 3 => ⟨S4194304, .i32⟩
  | 4 => ⟨S4194304, .i32⟩
  | 5 => ⟨S4194304x1, .i32⟩
  | 6 => ⟨S4194304x1, .i32⟩
  | 7 => ⟨S4194304x2, .i32⟩
  | 8 => ⟨S4194304, .f32⟩
  | 9 => ⟨S_, .i32⟩
  | 10 => ⟨S4194304, .i32⟩
  | 11 => ⟨S4194304, .i32⟩
  | 12 => ⟨S_, .i32⟩
  | 13 => ⟨S4194304, .i32⟩
  | 14 => ⟨S4194304, .i32⟩
  | 15 => ⟨S_, .i32⟩
  | 16 => ⟨S4194304, .i32⟩
  | 17 => ⟨S4194304, .i1⟩
  | 18 => ⟨S_, .i32⟩
  | 19 => ⟨S4194304, .i32⟩
  | 20 => ⟨S4194304, .i32⟩
  | 21 => ⟨S4194304, .i32⟩
  | 22 => ⟨S_, .i32⟩
  | 23 => ⟨S4194304, .i32⟩
  | 24 => ⟨S4194304, .i1⟩
  | 25 => ⟨S_, .i32⟩
  | 26 => ⟨S4194304, .i32⟩
  | 27 => ⟨S4194304, .i32⟩
  | 28 => ⟨S4194304, .i32⟩
  | 29 => ⟨S4194304x1, .i32⟩
  | 30 => ⟨S4194304x1, .i32⟩
  | 31 => ⟨S4194304x2, .i32⟩
  | 32 => ⟨S4194304, .f32⟩
  | 33 => ⟨S4194304, .f32⟩
  | 34 => ⟨S4194304, .f32⟩
  | 35 => ⟨S4194304, .f32⟩
  | 36 => ⟨S4194304, .f32⟩
  | 37 => ⟨S4194304, .f32⟩
  | 38 => ⟨S4194304, .f32⟩
  | 39 => ⟨S4194304, .f32⟩
  | 40 => ⟨S4194304, .f32⟩
  | 41 => ⟨S4194304, .f32⟩
  | 42 => ⟨S1x4194304x1, .f32⟩
  | _ => ⟨S4194304x2, .f32⟩

abbrev hbmTy (i : Nat) : BufTy := match i / 128 with
  | 0 => hbmTy0_0 i
  | 1 => hbmTy0_1 i
  | _ => ⟨S4194304x2, .f32⟩

abbrev bufTy : (tb : Table) → Fin (tcTables nBuf tb) → BufTy
  | .hbm, ⟨i, _⟩ => hbmTy i
  | _, _ => ⟨S4194304x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_cst_8 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v38 : Ref sig .tc := ⟨.hbm, 66, rfl⟩
abbrev main_v39 : Ref sig .tc := ⟨.hbm, 67, rfl⟩
abbrev main_cst_9 : Ref sig .tc := ⟨.hbm, 68, rfl⟩
abbrev main_cst_10 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_v40 : Ref sig .tc := ⟨.hbm, 75, rfl⟩
abbrev main_v41 : Ref sig .tc := ⟨.hbm, 76, rfl⟩
abbrev main_c : Ref sig .tc := ⟨.hbm, 77, rfl⟩
abbrev main_v42 : Ref sig .tc := ⟨.hbm, 78, rfl⟩
abbrev main_v43 : Ref sig .tc := ⟨.hbm, 79, rfl⟩
abbrev main_c_11 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_c_12 : Ref sig .tc := ⟨.hbm, 84, rfl⟩
abbrev main_v47 : Ref sig .tc := ⟨.hbm, 85, rfl⟩
abbrev main_v48 : Ref sig .tc := ⟨.hbm, 86, rfl⟩
abbrev main_c_13 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_c_14 : Ref sig .tc := ⟨.hbm, 95, rfl⟩
abbrev main_v56 : Ref sig .tc := ⟨.hbm, 96, rfl⟩
abbrev main_v57 : Ref sig .tc := ⟨.hbm, 97, rfl⟩
abbrev main_c_15 : Ref sig .tc := ⟨.hbm, 98, rfl⟩
abbrev main_v58 : Ref sig .tc := ⟨.hbm, 99, rfl⟩
abbrev main_v59 : Ref sig .tc := ⟨.hbm, 100, rfl⟩
abbrev main_c_16 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_17 : Ref sig .tc := ⟨.hbm, 105, rfl⟩
abbrev main_v63 : Ref sig .tc := ⟨.hbm, 106, rfl⟩
abbrev main_v64 : Ref sig .tc := ⟨.hbm, 107, rfl⟩
abbrev main_c_18 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_c_19 : Ref sig .tc := ⟨.hbm, 116, rfl⟩
abbrev main_v72 : Ref sig .tc := ⟨.hbm, 117, rfl⟩
abbrev main_v73 : Ref sig .tc := ⟨.hbm, 118, rfl⟩
abbrev main_c_20 : Ref sig .tc := ⟨.hbm, 119, rfl⟩
abbrev main_v74 : Ref sig .tc := ⟨.hbm, 120, rfl⟩
abbrev main_v75 : Ref sig .tc := ⟨.hbm, 121, rfl⟩
abbrev main_c_21 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_c_22 : Ref sig .tc := ⟨.hbm, 126, rfl⟩
abbrev main_v79 : Ref sig .tc := ⟨.hbm, 127, rfl⟩
abbrev main_v80 : Ref sig .tc := ⟨.hbm, 128, rfl⟩
abbrev main_c_23 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_c_24 : Ref sig .tc := ⟨.hbm, 137, rfl⟩
abbrev main_v88 : Ref sig .tc := ⟨.hbm, 138, rfl⟩
abbrev main_v89 : Ref sig .tc := ⟨.hbm, 139, rfl⟩
abbrev main_c_25 : Ref sig .tc := ⟨.hbm, 140, rfl⟩
abbrev main_v90 : Ref sig .tc := ⟨.hbm, 141, rfl⟩
abbrev main_v91 : Ref sig .tc := ⟨.hbm, 142, rfl⟩
abbrev main_c_26 : Ref sig .tc := ⟨.hbm, 143, rfl⟩
abbrev main_v92 : Ref sig .tc := ⟨.hbm, 144, rfl⟩
abbrev main_v93 : Ref sig .tc := ⟨.hbm, 145, rfl⟩
abbrev main_c_27 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_c_28 : Ref sig .tc := ⟨.hbm, 150, rfl⟩
abbrev main_v97 : Ref sig .tc := ⟨.hbm, 151, rfl⟩
abbrev main_v98 : Ref sig .tc := ⟨.hbm, 152, rfl⟩
abbrev main_c_29 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩

abbrev nD : Nat := 1
abbrev τ : Topo := Topo.v7x

variable {F : FTy → Type} [FloatOps F]

class Facts₀ : Prop where
  slices_S4194304x2_S4194304x1_0_0 : S4194304x2.Slices ![0, 0] S4194304x1
  shapeCasts_S4194304x1_S4194304 : S4194304x1.ShapeCasts S4194304
  slices_S2x2_S1x1_0_0 : S2x2.Slices ![0, 0] S1x1
  shapeCasts_S1x1_S_ : S1x1.ShapeCasts S_
  bcast_S_S4194304 : S_.BroadcastsInDim S4194304 (![] : Fin 0 → Fin S4194304.rank)
  slices_S2x2_S1x1_0_1 : S2x2.Slices ![0, 1] S1x1
  slices_S4194304x2_S4194304x1_0_1 : S4194304x2.Slices ![0, 1] S4194304x1
  slices_S2x2_S1x1_1_0 : S2x2.Slices ![1, 0] S1x1
  slices_S2x2_S1x1_1_1 : S2x2.Slices ![1, 1] S1x1
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  bcast_S4194304_S1x4194304x1_1 : S4194304.BroadcastsInDim S1x4194304x1 (![1] : Fin 1 → Fin S1x4194304x1.rank)
  gather_S1024x1024_S4194304x2_S4194304_n_01_n_n_01_1_11_wf : GatherDims.WF S1024x1024 S4194304x2 S4194304 [] [0, 1] [] [0, 1] [] 1 ![1, 1]

variable [Facts₀]

def gather_S1024x1024_S4194304x2_S4194304_n_01_n_n_01_1_11 : GatherDims S1024x1024 S4194304x2 S4194304 where
  offsetDims := []
  collapsedSliceDims := [0, 1]
  operandBatchingDims := []
  startIndicesBatchingDims := []
  startIndexMap := [0, 1]
  indexVectorDim := 1
  sliceSizes := ![1, 1]
  wf := gather_S1024x1024_S4194304x2_S4194304_n_01_n_n_01_1_11_wf

class Facts : Prop extends Facts₀ where

variable [Facts]
-- ==== Proof.CellMath.lean ====
/-
  The scalar mathematics of bilinear interpolation on a 1024 x 1024 table, over the extended reals.

  A query coordinate q (any extended real) is split into a CELL, floor q clamped into [0, 1022], and a WEIGHT,
  q - cell clamped into [0, 1].  Whatever q is (finite, an infinity, or the junk value of a division by zero) the
  cell is a natural number k with k <= 1022 and the weight a real number, so both neighbours k, k + 1 are rows of the
  table and all the arithmetic that follows is arithmetic of real numbers.

  Two arrangements of the interpolated value are joined here:
  * the MASKED-SUM arrangement: a row of weights that holds 1 - a at k, a at k + 1 and 0 elsewhere is
    contracted against the table (sum over h of mask h * g h = (1 - a) * g k + a * g (k + 1)), once along each axis;
  * the FOUR-CORNER arrangement: top + (bot - top) * ay with top = tl + (tr - tl) * ax, bot = bl + (br - bl) * ax.
  On real numbers both are (1-ay)(1-ax) tl + (1-ay) ax tr + ay (1-ax) bl + ay ax br.
-/
import Idealize.ShloMosaic.PureOps.Ideal.Laws

noncomputable section

open scoped BigOperators

namespace Cert.Bilinear

open Idealize.ShloMosaic

/-! ## The five float literals of the two programs -/

theorem lit_zero : Ideal.ofBits .f32 0x00000000#32 = ((0 : ℝ) : EReal) := by
  rw [Ideal.ofBits_zero_f32]; rfl
theorem lit_one : Ideal.ofBits .f32 0x3F800000#32 = ((1 : ℝ) : EReal) := by
  simp [Ideal.ofBits, Ideal.ieee, -EReal.coe_mul]; norm_num
theorem lit_1022 : Ideal.ofBits .f32 0x447F8000#32 = ((1022 : ℝ) : EReal) := by
  simp [Ideal.ofBits, Ideal.ieee, -EReal.coe_mul]; norm_num
theorem lit_1023 : Ideal.ofBits .f32 0x447FC000#32 = ((1023 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num

/-- 1024 - 1 = 1023, the scale the reference computes and the kernel spells. -/
theorem lit_1024_sub_one :
    Ideal.ofBits .f32 0x44800000#32 - Ideal.ofBits .f32 0x3F800000#32 = Ideal.ofBits .f32 0x447FC000#32 := by
  rw [lit_1024, lit_one, lit_1023, ← EReal.coe_sub]; norm_num

/-! ## The query coordinate -/

/-- The fractional row (or column) number of a query value x between the bounds lo and hi: 1023 (x - lo) / (hi - lo). -/
def coordQ (x lo hi : EReal) : EReal := Ideal.div (Ideal.ofBits .f32 0x447FC000#32 * (x - lo)) (hi - lo)

/-! ## The cell and the weight of a coordinate -/

/-- The clamped floor of a coordinate, as an extended real. -/
def cellF (q : EReal) : EReal :=
  min (Ideal.ofBits .f32 0x447F8000#32) (max (Ideal.ofBits .f32 0x00000000#32) (Ideal.liftRound Int.floor q))

/-- The clamped fractional part of a coordinate. -/
def weight (q : EReal) : EReal :=
  min (Ideal.ofBits .f32 0x3F800000#32) (max (Ideal.ofBits .f32 0x00000000#32) (q - cellF q))

/-- The cell as a 32-bit word (the conversion rounds toward zero and saturates). -/
def cellI (q : EReal) : BitVec 32 := Ideal.fptosi 32 (cellF q)

theorem coe_max' (a b : ℝ) : max (a : EReal) (b : EReal) = ((max a b : ℝ) : EReal) :=
  (EReal.coe_strictMono.monotone.map_max).symm
theorem coe_min' (a b : ℝ) : min (a : EReal) (b : EReal) = ((min a b : ℝ) : EReal) :=
  (EReal.coe_strictMono.monotone.map_min).symm

/-- The clamped floor is a natural number at most 1022, for every extended real. -/
theorem cellF_nat (q : EReal) : ∃ k : ℕ, k ≤ 1022 ∧ cellF q = (((k : ℕ) : ℝ) : EReal) := by
  unfold cellF
  rw [lit_1022, lit_zero]
  induction q using EReal.rec with
  | bot => exact ⟨0, by omega, by simp⟩
  | top =>
    refine ⟨1022, le_refl _, ?_⟩
    simp only [Ideal.liftRound_top]
    rw [max_eq_right (le_top), min_eq_left le_top]; norm_num
  | coe r =>
    refine ⟨(min 1022 (max 0 ⌊r⌋)).toNat, by omega, ?_⟩
    simp only [Ideal.liftRound_coe]
    rw [coe_max', coe_min']
    congr 1
    have h : (min 1022 (max 0 ⌊r⌋) : ℤ) = ((min 1022 (max 0 ⌊r⌋)).toNat : ℤ) := by
      rw [Int.toNat_of_nonneg]; omega
    calc min (1022 : ℝ) (max 0 (⌊r⌋ : ℝ)) = ((min 1022 (max 0 ⌊r⌋) : ℤ) : ℝ) := by push_cast; rfl
      _ = (((min 1022 (max 0 ⌊r⌋)).toNat : ℤ) : ℝ) := by rw [← h]
      _ = _ := by push_cast; rfl

/-- The natural number the cell is. -/
def cellN (q : EReal) : ℕ := Classical.choose (cellF_nat q)

theorem cellN_le (q : EReal) : cellN q ≤ 1022 := (Classical.choose_spec (cellF_nat q)).1

theorem cellF_eq (q : EReal) : cellF q = (((cellN q : ℕ) : ℝ) : EReal) := (Classical.choose_spec (cellF_nat q)).2

/-- Converting a small natural number to a 32-bit signed word gives that number. -/
theorem fptosi_nat (k : ℕ) (hk : k ≤ 1022) : Ideal.fptosi 32 (((k : ℕ) : ℝ) : EReal) = BitVec.ofNat 32 k := by
  unfold Ideal.fptosi
  rw [Ideal.toIntClamped_coe, if_pos (by positivity), Int.floor_natCast]
  have : max (-((2 ^ (32 - 1) : ℕ) : ℤ)) (min (((2 ^ (32 - 1) : ℕ) : ℤ) - 1) (k : ℤ)) = (k : ℤ) := by
    norm_num; omega
  rw [this, BitVec.ofInt_natCast]

theorem cellI_eq (q : EReal) : cellI q = BitVec.ofNat 32 (cellN q) := by
  unfold cellI; rw [cellF_eq, fptosi_nat _ (cellN_le q)]

/-- The weight is a real number in [0, 1], for every extended real. -/
theorem weight_real (q : EReal) : ∃ a : ℝ, weight q = (a : EReal) := by
  unfold weight
  rw [lit_one, lit_zero]
  generalize q - cellF q = z
  induction z using EReal.rec with
  | bot => exact ⟨0, by simp⟩
  | top => exact ⟨1, by rw [max_eq_right le_top, min_eq_left le_top]⟩
  | coe r => exact ⟨min 1 (max 0 r), by rw [coe_max', coe_min']⟩

/-! ## Words: the equality test against a lane number, and the next cell -/

theorem ofNat_succ (k : ℕ) : BitVec.ofNat 32 k + 1#32 = BitVec.ofNat 32 (k + 1) := by
  rw [← BitVec.ofNat_add]

/-- The equality test of lane h against cell k answers 1 exactly when h = k (both below 2^32). -/
theorem cmpi_eq_ofNat (h k : ℕ) (hh : h < 2 ^ 32) (hk : k < 2 ^ 32) :
    IntOp.cmpi .eq (BitVec.ofNat 32 h) (BitVec.ofNat 32 k) = 1#1 ↔ h = k := by
  show BitVec.ofBool (BitVec.ofNat 32 h == BitVec.ofNat 32 k) = 1#1 ↔ h = k
  have inj : BitVec.ofNat 32 h = BitVec.ofNat 32 k → h = k := by
    intro e'
    have := congrArg BitVec.toNat e'
    simp only [BitVec.toNat_ofNat] at this
    rwa [Nat.mod_eq_of_lt hh, Nat.mod_eq_of_lt hk] at this
  by_cases e : h = k
  · subst e; simp
  · have : (BitVec.ofNat 32 h == BitVec.ofNat 32 k) = false := by
      rw [beq_eq_false_iff_ne]; exact fun e' => e (inj e')
    rw [this]; simp [e]

/-- A cell read as a signed word is not negative, so an index normalisation that adds the extent to negative
    indices leaves it alone. -/
theorem slt_zero_ofNat (k : ℕ) (hk : k ≤ 1023) : IntOp.cmpi .slt (BitVec.ofNat 32 k) 0#32 = 0#1 := by
  show BitVec.ofBool ((BitVec.ofNat 32 k).slt 0#32) = 0#1
  have : (BitVec.ofNat 32 k).slt 0#32 = false := by
    rw [BitVec.slt, decide_eq_false_iff_not, not_lt]
    have h0 : (0#32).toInt = 0 := BitVec.toInt_zero
    have hk' : (BitVec.ofNat 32 k).toInt = k := by
      rw [BitVec.toInt_ofNat']; apply Int.bmod_eq_of_le <;> omega
    rw [h0, hk']; omega
  rw [this]; rfl

/-- A cell read back as a signed integer is the cell. -/
theorem toInt_ofNat_small (k : ℕ) (hk : k ≤ 1023) : (BitVec.ofNat 32 k).toInt.toNat = k := by
  rw [BitVec.toInt_ofNat']
  have : ((k : ℤ)).bmod (2 ^ 32) = k := by
    apply Int.bmod_eq_of_le <;> omega
  omega

/-! ## A weight row -/

/-- The weight row of a coordinate: 1 - weight at the cell, weight at the next lane, 0 elsewhere. -/
def maskRow (q : EReal) (h : ℕ) : EReal :=
  if h = cellN q then Ideal.ofBits .f32 0x3F800000#32 - weight q
  else if h = cellN q + 1 then weight q else Ideal.ofBits .f32 0x00000000#32

/-- The same row as selected by equality tests of lane words against the cell word and the next word. -/
def maskW (a : EReal) (y : BitVec 32) (h : ℕ) : EReal :=
  Scalar.select (IntOp.cmpi .eq (BitVec.ofNat 32 h) y) (Ideal.ofBits .f32 0x3F800000#32 - a)
    (Scalar.select (IntOp.cmpi .eq (BitVec.ofNat 32 h) (y + 1#32)) a (Ideal.ofBits .f32 0x00000000#32))

theorem maskW_eq (q : EReal) (h : ℕ) (hh : h < 1024) : maskW (weight q) (cellI q) h = maskRow q h := by
  unfold maskW maskRow Scalar.select
  have hk := cellN_le q
  rw [cellI_eq, ofNat_succ]
  have e1 : (IntOp.cmpi .eq (BitVec.ofNat 32 h) (BitVec.ofNat 32 (cellN q)) = 1) ↔ h = cellN q :=
    cmpi_eq_ofNat h (cellN q) (by omega) (by omega)
  have e2 : (IntOp.cmpi .eq (BitVec.ofNat 32 h) (BitVec.ofNat 32 (cellN q + 1)) = 1) ↔ h = cellN q + 1 :=
    cmpi_eq_ofNat h (cellN q + 1) (by omega) (by omega)
  simp only [e1, e2]

/-! ## A masked sum picks two neighbours -/

/-- Contracting a row that holds a at k, b at k + 1 and 0 elsewhere against g leaves a * g k + b * g (k + 1). -/
theorem masked_sum (k : ℕ) (hk : k + 1 < 1024) (a b : EReal) (g : Fin 1024 → EReal) :
    ∑ h : Fin 1024, (if h.val = k then a else if h.val = k + 1 then b else 0) * g h
      = a * g ⟨k, by omega⟩ + b * g ⟨k + 1, hk⟩ := by
  rw [Finset.sum_eq_add (⟨k, by omega⟩ : Fin 1024) ⟨k + 1, hk⟩ (by simp [Fin.ext_iff])]
  · simp
  · intro c _ ⟨h1, h2⟩
    have e1 : ¬ c.val = k := fun e => h1 (Fin.ext e)
    have e2 : ¬ c.val = k + 1 := fun e => h2 (Fin.ext e)
    rw [if_neg e1, if_neg e2, zero_mul]
  · intro h; exact absurd (Finset.mem_univ _) h
  · intro h; exact absurd (Finset.mem_univ _) h

/-! ## The two arrangements agree on real numbers -/

/-- Masked-sum arrangement against four-corner arrangement, on reals embedded in the extended reals. -/
theorem arrangements_agree (ay ax tl tr bl br : ℝ) :
    (((1 : ℝ) : EReal) - (ax : EReal)) * ((((1 : ℝ) : EReal) - (ay : EReal)) * (tl : EReal) + (ay : EReal) * (bl : EReal))
        + (ax : EReal) * ((((1 : ℝ) : EReal) - (ay : EReal)) * (tr : EReal) + (ay : EReal) * (br : EReal))
      = ((tl : EReal) + ((tr : EReal) - (tl : EReal)) * (ax : EReal))
        + (((bl : EReal) + ((br : EReal) - (bl : EReal)) * (ax : EReal))
            - ((tl : EReal) + ((tr : EReal) - (tl : EReal)) * (ax : EReal))) * (ay : EReal) := by
  simp only [← EReal.coe_sub, ← EReal.coe_mul, ← EReal.coe_add]
  congr 1; ring

/-! ## The interpolated value of one query, in the two arrangements -/

/-- The cell of a coordinate as a row (or column) of the table, and the next one. -/
def corner (q : EReal) : Fin 1024 := ⟨cellN q, by have := cellN_le q; omega⟩
def cornerS (q : EReal) : Fin 1024 := ⟨cellN q + 1, by have := cellN_le q; omega⟩

/-- Masked-sum arrangement: the weight row of the first coordinate contracted against the table, then the result
    contracted against the weight row of the second coordinate. -/
def rowMasked (qy qx : EReal) (g : Fin 1024 → Fin 1024 → EReal) : EReal :=
  ∑ w : Fin 1024, (∑ h : Fin 1024, maskRow qy h.val * g h w) * maskRow qx w.val

/-- Four-corner arrangement: blend the two upper corners, the two lower corners, then the two blends. -/
def rowCorners (qy qx : EReal) (g : Fin 1024 → Fin 1024 → EReal) : EReal :=
  (g (corner qy) (corner qx) + (g (corner qy) (cornerS qx) - g (corner qy) (corner qx)) * weight qx)
    + ((g (cornerS qy) (corner qx) + (g (cornerS qy) (cornerS qx) - g (cornerS qy) (corner qx)) * weight qx)
        - (g (corner qy) (corner qx) + (g (corner qy) (cornerS qx) - g (corner qy) (corner qx)) * weight qx)) * weight qy

/-- On a table of real numbers the two arrangements give the same value, whatever the two coordinates are. -/
theorem rowMasked_eq_rowCorners (qy qx : EReal) (g : Fin 1024 → Fin 1024 → EReal)
    (hg : ∀ h w, ∃ x : ℝ, g h w = (x : EReal)) : rowMasked qy qx g = rowCorners qy qx g := by
  obtain ⟨ay, hay⟩ := weight_real qy
  obtain ⟨ax, hax⟩ := weight_real qx
  choose G hG using hg
  have hy := cellN_le qy
  have hx := cellN_le qx
  have hrow : ∀ (q : EReal) (h : ℕ), maskRow q h
      = (if h = cellN q then Ideal.ofBits .f32 0x3F800000#32 - weight q else if h = cellN q + 1 then weight q else 0) := by
    intro q h; unfold maskRow; rw [Ideal.ofBits_zero_f32]
  unfold rowMasked rowCorners
  have inner : ∀ w, ∑ h : Fin 1024, maskRow qy h.val * g h w
      = (Ideal.ofBits .f32 0x3F800000#32 - weight qy) * g (corner qy) w + weight qy * g (cornerS qy) w := by
    intro w
    simp only [hrow]
    exact masked_sum (cellN qy) (by omega) _ _ (fun h => g h w)
  simp only [inner]
  have outer : ∀ A : Fin 1024 → EReal, ∑ w : Fin 1024, A w * maskRow qx w.val
      = (Ideal.ofBits .f32 0x3F800000#32 - weight qx) * A (corner qx) + weight qx * A (cornerS qx) := by
    intro A
    simp only [hrow, mul_comm (A _)]
    exact masked_sum (cellN qx) (by omega) _ _ A
  rw [outer]
  simp only [hG, hay, hax, lit_one]
  exact arrangements_agree ay ax _ _ _ _

end Cert.Bilinear

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.KernelRow.lean ====
/-
  One row of the block a grid point computes, read as mathematics.

  The body takes a [1024, 2] block of queries, the [2, 2] bounds and the whole [1024, 1024] table.  For row r it forms
  the two coordinates qy = 1023 (x - b00) / (b01 - b00) and qx = 1023 (v - b10) / (b11 - b10), the clamped floor
  and the clamped fractional part of each, builds for each coordinate a weight row over the 1024 lanes (by comparing
  a lane counter with the cell word and with the cell word plus one), multiplies the first weight rows into the table
  on the matrix unit, multiplies the product by the second weight rows and sums over the lanes.  So row r holds

      sum over w of (sum over h of rowweight_r h * table h w) * colweight_r w,

  the masked-sum arrangement of bilinear interpolation (CellMath.rowMasked).  Each lemma below reads one of the
  body's value definitions at an index; the last one joins them.
-/
import proofs.«117140_j47227460387485_1_alg».proof.Proof.Gen.KernelIdeal.Frame
import proofs.«117140_j47227460387485_1_alg».proof.Proof.CellMath
import proofs.«117140_j47227460387485_1_alg».proof.Proof.LibKeepdims
import Idealize.ShloMosaic.Lib.ValueIdx
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.Bilinear

/-! ## Small layout facts -/

/-- A [1024, 1] column viewed as a [1024] vector reads, at r, the column at (r, 0). -/
theorem cast_col {α : Type} (v : S1024x1.Idx → α) (r : Fin 1024) :
    shapeCast S1024 v shapeCasts_S1024x1_S1024 (ix1 r) = v (ix2 r (0 : Fin 1)) :=
  shapeCast_apply v shapeCasts_S1024x1_S1024 _ _ (by
    rw [Shape.rowMajor_val_two, Shape.rowMajor_val_one]
    show r.val * 1 + 0 = r.val
    omega)

/-- The one element of a [1, 1] block. -/
theorem extract00 {α : Type} (v : S1x1.Idx → α) : extractAt ![0, 0] v inpos_S1x1_p0_0 = v (ix2 (0 : Fin 1) (0 : Fin 1)) :=
  congrArg v (funext fun a => Fin.ext (by match a with | ⟨0, _⟩ => rfl | ⟨1, _⟩ => rfl))

/-! ## The coordinate, its cell and its weight, as the body computes them -/

theorem pay2_apply (v0 : Vec Ideal S1024x1 .f32) (v4 v6 : Vec Ideal S1x1 .f32) (r : Fin 1024) :
    k0_pay2 v0 v4 v6 (ix1 r) = coordQ (v0 (ix2 r (0 : Fin 1))) (v4 (ix2 (0 : Fin 1) (0 : Fin 1))) (v6 (ix2 (0 : Fin 1) (0 : Fin 1))) := by
  unfold k0_pay2
  show Ideal.div (Ideal.ofBits .f32 0x447FC000#32 * (shapeCast S1024 v0 shapeCasts_S1024x1_S1024 (ix1 r) - extractAt ![0, 0] v4 inpos_S1x1_p0_0))
      (extractAt ![0, 0] v6 inpos_S1x1_p0_0 - extractAt ![0, 0] v4 inpos_S1x1_p0_0) = _
  rw [cast_col, extract00, extract00]
  rfl

theorem pay3_apply (v2 : Vec Ideal S1024x1 .f32) (v8 v10 : Vec Ideal S1x1 .f32) (r : Fin 1024) :
    k0_pay3 v2 v8 v10 (ix1 r) = coordQ (v2 (ix2 r (0 : Fin 1))) (v8 (ix2 (0 : Fin 1) (0 : Fin 1))) (v10 (ix2 (0 : Fin 1) (0 : Fin 1))) := by
  unfold k0_pay3
  show Ideal.div (Ideal.ofBits .f32 0x447FC000#32 * (shapeCast S1024 v2 shapeCasts_S1024x1_S1024 (ix1 r) - extractAt ![0, 0] v8 inpos_S1x1_p0_0))
      (extractAt ![0, 0] v10 inpos_S1x1_p0_0 - extractAt ![0, 0] v8 inpos_S1x1_p0_0) = _
  rw [cast_col, extract00, extract00]
  rfl

theorem pay4_apply (v0 : Vec Ideal S1024x1 .f32) (v4 v6 : Vec Ideal S1x1 .f32) (i : S1024.Idx) :
    k0_pay4 v0 v4 v6 i = cellF (k0_pay2 v0 v4 v6 i) := rfl

theorem pay5_apply (v0 : Vec Ideal S1024x1 .f32) (v4 v6 : Vec Ideal S1x1 .f32) (i : S1024.Idx) :
    k0_pay5 v0 v4 v6 i = weight (k0_pay2 v0 v4 v6 i) := rfl

theorem pay6_apply (v0 : Vec Ideal S1024x1 .f32) (v4 v6 : Vec Ideal S1x1 .f32) (i : S1024.Idx) :
    k0_pay6 (F := Ideal) v0 v4 v6 i = cellI (k0_pay2 v0 v4 v6 i) := rfl

/-! ## The weight rows as the body selects them -/

theorem pay10_apply (v25 v37 : FVec Ideal S1024 .f32) (c : Ideal .f32) (v38 : FVec Ideal S1024 .f32) (r w : Fin 1024) :
    k0_pay10 v25 v37 c v38 (ix2 r w)
      = maskW (min (Ideal.ofBits .f32 0x3F800000#32) (max (Ideal.ofBits .f32 0x00000000#32)
            (v25 (ix1 r) - min c (max (v38 (ix1 r)) (v37 (ix1 r))))))
          (Ideal.fptosi 32 (min c (max (v38 (ix1 r)) (v37 (ix1 r))))) w.val := by
  unfold k0_pay10
  simp only [select, cmpi, Cert.Keepdims.broadcastTo_a1_ab_apply, shapeCast_self, addi, subf_apply,
    Cert.Keepdims.shapeCast_a_a1_apply]
  rw [iota_single_apply]
  rfl

/-! ## The matrix product of the weight rows with the table -/

abbrev D := Cert.KernelIdeal.dot_S1024x1024_S1024x1024_S1024x1024_1_0_0_1_n_n

theorem lhs_0 (j : S1024x1024.Idx) (k : D.contr.Idx) : (D.lhsIdx j k 0 : ℕ) = j 0 := by
  simp [DotDims.lhsIdx, D, Cert.KernelIdeal.dot_S1024x1024_S1024x1024_S1024x1024_1_0_0_1_n_n]; rfl
theorem lhs_1 (j : S1024x1024.Idx) (k : D.contr.Idx) : (D.lhsIdx j k 1 : ℕ) = k ⟨0, by decide⟩ := by
  simp [DotDims.lhsIdx, D, Cert.KernelIdeal.dot_S1024x1024_S1024x1024_S1024x1024_1_0_0_1_n_n]; rfl
theorem rhs_0 (j : S1024x1024.Idx) (k : D.contr.Idx) : (D.rhsIdx j k 0 : ℕ) = k ⟨0, by decide⟩ := by
  simp [DotDims.rhsIdx, D, Cert.KernelIdeal.dot_S1024x1024_S1024x1024_S1024x1024_1_0_0_1_n_n]; rfl
theorem rhs_1 (j : S1024x1024.Idx) (k : D.contr.Idx) : (D.rhsIdx j k 1 : ℕ) = j 1 := by
  simp [DotDims.rhsIdx, D, Cert.KernelIdeal.dot_S1024x1024_S1024x1024_S1024x1024_1_0_0_1_n_n]; rfl

theorem contr_rank : D.contr.rank = 1 := by decide
theorem contr_size : D.contr.size ⟨0, by decide⟩ = 1024 := by decide

/-- The contraction index is its one coordinate. -/
abbrev cE : D.contr.Idx ≃ Fin 1024 := contrEquiv1 D 1024 contr_rank contr_size

theorem lhs_at (r w h : Fin 1024) : D.lhsIdx (ix2 r w) (cE.symm h) = ix2 r h := by
  funext a; apply Fin.ext
  match a with
  | ⟨0, _⟩ => exact lhs_0 _ _
  | ⟨1, _⟩ => exact (lhs_1 _ _).trans (contrEquiv1_symm_val D 1024 contr_rank contr_size h)

theorem rhs_at (r w h : Fin 1024) : D.rhsIdx (ix2 r w) (cE.symm h) = ix2 h w := by
  funext a; apply Fin.ext
  match a with
  | ⟨0, _⟩ => exact (rhs_0 _ _).trans (contrEquiv1_symm_val D 1024 contr_rank contr_size h)
  | ⟨1, _⟩ => exact rhs_1 _ _

theorem pay9_apply (v35 : FVec Ideal S1024 .f32) (v36 : IVec S1024 32) (v67 : Vec Ideal S1024x1024 .bf16) (r w : Fin 1024) :
    k0_pay9 v35 v36 v67 (ix2 r w) = ∑ h : Fin 1024, maskW (v35 (ix1 r)) (v36 (ix1 r)) h.val * v67 (ix2 h w) := by
  unfold k0_pay9
  simp only [matmul]
  rw [Ideal.matmul_constant_zero_apply, ← Equiv.sum_comp cE.symm]
  refine Finset.sum_congr rfl fun h _ => ?_
  rw [lhs_at, rhs_at]
  simp only [truncf_apply, select, cmpi, Cert.Keepdims.broadcastTo_a1_ab_apply, shapeCast_self, addi, subf_apply,
    Cert.Keepdims.shapeCast_a_a1_apply]
  rw [iota_single_apply]
  rfl

/-! ## The masked lane sum -/

/-- A sum over the lanes of a [1024, 1024] array, read at row r. -/
theorem lane_sum (src : FVec Ideal S1024x1024 .f32) (hφ : FKind.Formats .f32)
    (hacc : (0x00000000#32 : BitVec 32) = 0x00000000#32) (r : Fin 1024) :
    multiReduction .add [1] S1024 src 0x00000000#32 reduces_S1024x1024_S1024 hφ hacc (ix1 r)
      = ∑ w : Fin 1024, src (ix2 r w) :=
  (Ideal.multiReduction_add_single src 0x00000000#32 reduces_S1024x1024_S1024 hφ hacc (ix1 r)).trans (by
    show ∑ k : Fin 1024, src (reduces_S1024x1024_S1024.lift (ix1 r) k) = _
    refine Finset.sum_congr rfl fun k _ => congrArg src (funext fun a => ?_)
    match a with
    | ⟨0, _⟩ => exact Fin.ext rfl
    | ⟨1, _⟩ => exact Fin.ext rfl)

theorem pay1_apply (v69 v87 : FVec Ideal S1024x1024 .f32) (r : Fin 1024) (u : Fin 1) :
    k0_pay1 v69 v87 (ix2 r u) = ∑ w : Fin 1024, v69 (ix2 r w) * v87 (ix2 r w) := by
  unfold k0_pay1
  refine (Cert.Keepdims.shapeCast_a_a1_apply _ _ r u).trans ?_
  exact (lane_sum _ _ _ r).trans rfl

/-! ## The block a grid point leaves: one interpolated value per row -/

theorem hz : (![0, 0] : Fin 2 → Nat) = fun _ => 0 := funext fun a => by fin_cases a <;> rfl

/-- The two column loads and the four bound loads, read at an index. -/
theorem ld_col0 (x0 : Vec Ideal S1024x2 .f32) (r : Fin 1024) : View.ld x0 r0_0 (ix2 r (0 : Fin 1)) = x0 (ix2 r (0 : Fin 2)) :=
  congrArg x0 (funext fun a => Fin.ext (by match a with | ⟨0, _⟩ => simp [Rect.emb_apply] | ⟨1, _⟩ => simp [Rect.emb_apply]))
theorem ld_col1 (x0 : Vec Ideal S1024x2 .f32) (r : Fin 1024) : View.ld x0 r0_1 (ix2 r (0 : Fin 1)) = x0 (ix2 r (1 : Fin 2)) :=
  congrArg x0 (funext fun a => Fin.ext (by match a with | ⟨0, _⟩ => simp [Rect.emb_apply] | ⟨1, _⟩ => simp [Rect.emb_apply]))
theorem ld_b00 (x1 : Vec Ideal S2x2 .f32) : View.ld x1 r0_2 (ix2 (0 : Fin 1) (0 : Fin 1)) = x1 (ix2 (0 : Fin 2) (0 : Fin 2)) :=
  congrArg x1 (funext fun a => Fin.ext (by match a with | ⟨0, _⟩ => simp [Rect.emb_apply] | ⟨1, _⟩ => simp [Rect.emb_apply]))
theorem ld_b01 (x1 : Vec Ideal S2x2 .f32) : View.ld x1 r0_3 (ix2 (0 : Fin 1) (0 : Fin 1)) = x1 (ix2 (0 : Fin 2) (1 : Fin 2)) :=
  congrArg x1 (funext fun a => Fin.ext (by match a with | ⟨0, _⟩ => simp [Rect.emb_apply] | ⟨1, _⟩ => simp [Rect.emb_apply]))
theorem ld_b10 (x1 : Vec Ideal S2x2 .f32) : View.ld x1 r0_4 (ix2 (0 : Fin 1) (0 : Fin 1)) = x1 (ix2 (1 : Fin 2) (0 : Fin 2)) :=
  congrArg x1 (funext fun a => Fin.ext (by match a with | ⟨0, _⟩ => simp [Rect.emb_apply] | ⟨1, _⟩ => simp [Rect.emb_apply]))
theorem ld_b11 (x1 : Vec Ideal S2x2 .f32) : View.ld x1 r0_5 (ix2 (0 : Fin 1) (0 : Fin 1)) = x1 (ix2 (1 : Fin 2) (1 : Fin 2)) :=
  congrArg x1 (funext fun a => Fin.ext (by match a with | ⟨0, _⟩ => simp [Rect.emb_apply] | ⟨1, _⟩ => simp [Rect.emb_apply]))

/-- Row r of the block a grid point leaves is the masked-sum interpolation of that row's query: its first coordinate
    from column 0 of the query block and the first row of the bounds, its second from column 1 and the second row,
    against the whole table. -/
theorem out_row (x0 : Vec Ideal S1024x2 .f32) (x1 : Vec Ideal S2x2 .f32) (x2 : Vec Ideal S1024x1024 .bf16) (r : Fin 1024) (u : Fin 1) :
    out0_3 x0 x1 x2 (ix2 r u)
      = rowMasked (coordQ (x0 (ix2 r (0 : Fin 2))) (x1 (ix2 (0 : Fin 2) (0 : Fin 2))) (x1 (ix2 (0 : Fin 2) (1 : Fin 2))))
          (coordQ (x0 (ix2 r (1 : Fin 2))) (x1 (ix2 (1 : Fin 2) (0 : Fin 2))) (x1 (ix2 (1 : Fin 2) (1 : Fin 2))))
          (fun h w => x2 (ix2 h w)) := by
  unfold out0_3
  rw [View.canon_unit_zero hz, pay1_apply]
  unfold rowMasked
  refine Finset.sum_congr rfl fun w _ => ?_
  rw [pay9_apply, pay10_apply]
  congr 1
  · refine Finset.sum_congr rfl fun h _ => ?_
    rw [View.ld_unit_zero (S := S1024x1024) hz]
    congr 1
    show maskW (weight (k0_pay2 (View.ld x0 r0_0) (View.ld x1 r0_2) (View.ld x1 r0_3) (ix1 r)))
      (cellI (k0_pay2 (View.ld x0 r0_0) (View.ld x1 r0_2) (View.ld x1 r0_3) (ix1 r))) h.val = _
    rw [pay2_apply, maskW_eq _ _ h.isLt, ld_col0, ld_b00, ld_b01]
  · show maskW (weight (k0_pay3 (View.ld x0 r0_1) (View.ld x1 r0_4) (View.ld x1 r0_5) (ix1 r)))
      (cellI (k0_pay3 (View.ld x0 r0_1) (View.ld x1 r0_4) (View.ld x1 r0_5) (ix1 r))) w.val = _
    rw [pay3_apply, maskW_eq _ _ w.isLt, ld_col1, ld_b10, ld_b11]

end Cert.KernelIdeal.Row

end
-- ==== Proof.KernelArray.lean ====
/-
  From blocks to the whole array, and through the host line after the region.

  Grid point t takes rows 1024 t .. 1024 t + 1023 of the queries, the whole bounds and the whole table (which the
  host has first passed through a change of float format, the identity on extended reals), and writes rows
  1024 t .. 1024 t + 1023 of a [4194304, 1] array.  The 4096 blocks tile that array, so after the run row n holds the
  masked-sum interpolation of query n.  The host line after the region only re-labels [4194304, 1] as [1, 4194304, 1].
-/
import proofs.«117140_j47227460387485_1_alg».proof.Proof.Gen.KernelIdeal.Frame
import proofs.«117140_j47227460387485_1_alg».proof.Proof.KernelRow
import Idealize.ShloMosaic.Lib.Pipeline.Value
import Idealize.ShloMosaic.Lib.StableHlo.Run

set_option maxRecDepth 16384

noncomputable section

namespace Cert.KernelIdeal.Arr

open Cert.KernelIdeal Cert.KernelIdeal.Gen Cert.KernelIdeal.Row Idealize.ShloMosaic Idealize.ShloMosaic.TcCoe Idealize.SL.Sem
open Idealize.ShloMosaic.ValueIdx Cert.Bilinear
open Idealize.ShloMosaic.Pipeline (Dat)

variable (m : (ℓ : Loc nD τ sig) → Buf (Elt Ideal) ℓ) (ρ : Dev nD → PrngReg)

/-- The interpolated value of query n, in the masked-sum arrangement, as a function of the three whole arrays. -/
def rowValue (inp : S4194304x2.Idx → EReal) (grid : S1024x1024.Idx → EReal) (bnd : S2x2.Idx → EReal) (n : Fin 4194304) : EReal :=
  rowMasked (coordQ (inp (ix2 n (0 : Fin 2))) (bnd (ix2 (0 : Fin 2) (0 : Fin 2))) (bnd (ix2 (0 : Fin 2) (1 : Fin 2))))
    (coordQ (inp (ix2 n (1 : Fin 2))) (bnd (ix2 (1 : Fin 2) (0 : Fin 2))) (bnd (ix2 (1 : Fin 2) (1 : Fin 2))))
    (fun h w => grid (ix2 h w))

/-- The [4194304, 1] array the region leaves. -/
def G3 (inp : S4194304x2.Idx → EReal) (grid : S1024x1024.Idx → EReal) (bnd : S2x2.Idx → EReal) : S4194304x1.Idx → EReal :=
  fun i => rowValue inp grid bnd (i 0)

/-- The printed index maps over the grid: the query window and the output window move together along the rows, the
    bounds and the table stay put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A row of the query block at point t is a row of the query array. -/
theorem blk0 (c : Dev nD) (t : Fin cfg0.N) (e0 : win0_0.index t (0 : Fin 2) = t.val) (e1 : win0_0.index t (1 : Fin 2) = 0)
    (r : Fin 1024) (a : Fin 2) (i0 : Fin 4194304) (hi : i0.val = t.val * 1024 + r.val) :
    iblk m c 0 t (ix2 r a) = V m c main_arg0 (ix2 i0 a) := by
  show V m c main_arg0 (((cfg0.win 0).blk t).view.emb (ix2 r a)) = _
  congr 1; funext b; apply Fin.ext
  match b with
  | ⟨0, _⟩ => show win0_0.index t (0 : Fin 2) * 1024 + 1 * r.val = i0.val; omega
  | ⟨1, _⟩ => show win0_0.index t (1 : Fin 2) * 2 + 1 * a.val = a.val; omega

/-- The bounds block is the bounds array at every point. -/
theorem blk1 (c : Dev nD) (t : Fin cfg0.N) (e0 : win0_1.index t (0 : Fin 2) = 0) (e1 : win0_1.index t (1 : Fin 2) = 0)
    (p q : Fin 2) : iblk m c 1 t (ix2 p q) = V m c main_arg2 (ix2 p q) := by
  show V m c main_arg2 (((cfg0.win 1).blk t).view.emb (ix2 p q)) = _
  congr 1; funext b; apply Fin.ext
  match b with
  | ⟨0, _⟩ => show win0_1.index t (0 : Fin 2) * 2 + 1 * p.val = p.val; omega
  | ⟨1, _⟩ => show win0_1.index t (1 : Fin 2) * 2 + 1 * q.val = q.val; omega

/-- The table block is the (format-changed) table at every point. -/
theorem blk2 (c : Dev nD) (t : Fin cfg0.N) (e0 : win0_2.index t (0 : Fin 2) = 0) (e1 : win0_2.index t (1 : Fin 2) = 0)
    (h w : Fin 1024) : iblk m c 2 t (ix2 h w) = V m c main_v0 (ix2 h w) := by
  show V m c main_v0 (((cfg0.win 2).blk t).view.emb (ix2 h w)) = _
  congr 1; funext b; apply Fin.ext
  match b with
  | ⟨0, _⟩ => show win0_2.index t (0 : Fin 2) * 1024 + 1 * h.val = h.val; omega
  | ⟨1, _⟩ => show win0_2.index t (1 : Fin 2) * 1024 + 1 * w.val = w.val; omega

/-- What grid point t writes back is block t of G3 of the arrays as the region finds them. -/
theorem flushed_eq (c : Dev nD) (t : Fin cfg0.N) :
    (dats m 0 c).flushed 3 t
      = ((cfg0.win 3).blk t).view.read (Elt Ideal) (G3 (V m c main_arg0) (V m c main_v0) (V m c main_arg2)) := by
  show (cfg0.win 3).cut (grid0.coords t) ((dats m 0 c).after 3 t) = _
  rw [after0_3]
  obtain ⟨e00, e01, e10, e11, e20, e21, e30, e31⟩ := idx_facts t
  funext y
  obtain ⟨r, u, rfl⟩ : ∃ (r : Fin 1024) (u : Fin 1), y = ix2 r u := ⟨y 0, y 1, eq_ix2 y⟩
  show out0_3 (iblk m c 0 t) (iblk m c 1 t) (iblk m c 2 t) (ix2 r u)
    = G3 (V m c main_arg0) (V m c main_v0) (V m c main_arg2) (((cfg0.win 3).blk t).view.emb (ix2 r u))
  rw [out_row]
  unfold G3 rowValue
  have hi : ((((cfg0.win 3).blk t).view.emb (ix2 r u)) 0).val = t.val * 1024 + r.val := by
    show win0_3.index t (0 : Fin 2) * 1024 + 1 * r.val = _
    omega
  rw [blk0 m c t e00 e01 r 0 _ hi, blk0 m c t e00 e01 r 1 _ hi, blk1 m c t e10 e11, blk1 m c t e10 e11,
    blk1 m c t e10 e11, blk1 m c t e10 e11]
  have h2 : (fun h w => iblk m c 2 t (ix2 h w)) = fun h w => V m c main_v0 (ix2 h w) :=
    funext fun h => funext fun w => blk2 m c t e20 e21 h w
  rw [h2]

/-- An index of the array is in point t's block iff each coordinate is in the block's range on its axis. -/
theorem mem_blk (t : Fin cfg0.N) (i : S4194304x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v1).slice (win0_3.rect t)).set ↔ _
  rw [View.set_slice_whole, Rect.mem_set_unit]
  exact Iff.rfl

/-- Every row of the array is in the block of the point its row number divided by 1024 names. -/
theorem cover (i : S4194304x1.Idx) :
    ∃ t : Fin cfg0.N, (cfg0.win 3).flush t = true ∧ i ∈ ((cfg0.win 3).blk t).view.set := by
  have hi0 : (i 0).val < 4194304 := (i 0).isLt
  have hi1 : (i 1).val < 1 := (i 1).isLt
  refine ⟨⟨(i 0).val / 1024, by rw [show cfg0.N = 4096 from N_0]; omega⟩, flush0_3 _, ?_⟩
  rw [mem_blk]
  obtain ⟨-, -, -, -, -, -, e30, e31⟩ := idx_facts ⟨(i 0).val / 1024, by rw [show cfg0.N = 4096 from N_0]; omega⟩
  intro a
  match a with
  | ⟨0, _⟩ =>
    show win0_3.index _ (0 : Fin 2) * 1024 ≤ (i 0).val ∧ (i 0).val < win0_3.index _ (0 : Fin 2) * 1024 + 1024
    rw [e30]; show (i 0).val / 1024 * 1024 ≤ (i 0).val ∧ (i 0).val < (i 0).val / 1024 * 1024 + 1024
    omega
  | ⟨1, _⟩ =>
    show win0_3.index _ (1 : Fin 2) * 1 ≤ (i 1).val ∧ (i 1).val < win0_3.index _ (1 : Fin 2) * 1 + 1
    rw [e31]; omega

/-- The array after the run. -/
theorem final (c : Dev nD) :
    (dats m 0 c).arrAt 3 cfg0.N = G3 (V m c main_arg0) (V m c main_v0) (V m c main_arg2) :=
  (dats m 0 c).arrAt_eq_of_cover 3 _ (fun t _ => flushed_eq m c t) cover

/-- The table as the region finds it: the host's change of float format of the table argument, which is the identity
    on extended reals. -/
theorem V_table (c : Dev nD) :
    (V m c main_v0 : S1024x1024.Idx → EReal) = (m ((c : Thread nD τ).loc main_arg1) : S1024x1024.Idx → EReal) := by
  show StableHlo.after hostOps0 (fun b => m (c, b)) (Proc.devRef .tc main_v0) = _
  after_results
  rfl

/-- The program's result as one function of the three argument arrays: the region's array re-labelled [1, 4194304, 1]. -/
def result (c : Dev nD) : S1x4194304x1.Idx → EReal :=
  broadcastInDim S1x4194304x1 ![1, 2] bcast_S4194304x1_S1x4194304x1_1_2
    (G3 (m ((c : Thread nD τ).loc main_arg0)) (m ((c : Thread nD τ).loc main_arg1)) (m ((c : Thread nD τ).loc main_arg2)))

/-- The host line after the region applied to the region's array. -/
theorem tail_eq (c : Dev nD) :
    (Pipeline.afterTail₀ cfgs (dats m) 0 (V0 m) [hostOps1] c main_v2 : S1x4194304x1.Idx → EReal) = result m c := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v1)
      = (dats m 0 c).arrAt 3 cfg0.N :=
    Pipeline.withArrays_arr spec0 launch0.win.arr_inj c _ _ 3
  rw [hw, final, V_main_arg0, V_main_arg2, V_table]
  rfl

/-- The result at (0, n, 0) is the interpolated value of query n. -/
theorem result_apply (c : Dev nD) (u : Fin 1) (n : Fin 4194304) (v : Fin 1) :
    result m c (ix3 u n v)
      = rowValue (m ((c : Thread nD τ).loc main_arg0)) (m ((c : Thread nD τ).loc main_arg1)) (m ((c : Thread nD τ).loc main_arg2)) n := by
  unfold result
  rw [broadcastInDim_apply _ _ _ (ix3 u n v) (ix2 n v) (fun a => by
    match a with
    | ⟨0, _⟩ => show n.val = if (4194304 : ℕ) = 1 then 0 else n.val; rw [if_neg (by decide)]
    | ⟨1, _⟩ => show v.val = if (1 : ℕ) = 1 then 0 else v.val; rw [if_pos rfl]; omega)]
  rfl

/-- Every weakly fair execution of the idealized kernel program ends with its result at the masked-sum
    interpolation of every query, and with the three arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Arr

end
-- ==== Proof.RefRow.lean ====
/-
  The reference, read at one query.

  For query n the reference forms the same two coordinates qy, qx as the kernel, the same clamped floors and clamped
  fractional parts, converts the floors to integer indices, wraps negative indices by the table's extent (none is
  negative: a cell is at most 1022), gathers the four corners table[y0, x0], table[y0, x0 + 1], table[y0 + 1, x0],
  table[y0 + 1, x0 + 1] (each gather clamps its indices into the table, and none needs clamping), and blends:
  top = tl + (tr - tl) ax, bot = bl + (br - bl) ax, value = top + (bot - top) ay, the four-corner arrangement
  (CellMath.rowCorners).  The generated stage lemmas read each operation at an index; the gather, the join of the two
  index columns and the rank-0 reshapes of the bounds are read here.
-/
import proofs.«117140_j47227460387485_1_alg».proof.Proof.Gen.ReferenceIdeal.Read
import proofs.«117140_j47227460387485_1_alg».proof.Proof.CellMath
import Idealize.ShloMosaic.Lib.ValueIdx
import Idealize.ShloMosaic.Lib.Pipeline.Value
import Idealize.ShloMosaic.PureOps.Ideal.Laws

noncomputable section

namespace Cert.ReferenceIdeal.Row

open Cert.ReferenceIdeal Cert.ReferenceIdeal.Gen Cert.ReferenceIdeal.Read Idealize.ShloMosaic Idealize.ShloMosaic.ValueIdx Cert.Bilinear

/-! ## A point gather from a matrix -/

abbrev GD := Cert.ReferenceIdeal.gather_S1024x1024_S4194304x2_S4194304_n_01_n_n_01_1_11

theorem start_map0 : (0 : Fin 2) ∈ GD.startIndexMap := by
  show (0 : Fin 2) ∈ [(0 : Fin 2), 1]; simp
theorem start_map1 : (1 : Fin 2) ∈ GD.startIndexMap := by
  show (1 : Fin 2) ∈ [(0 : Fin 2), 1]; simp
theorem collapsed0 : (0 : Fin 2) ∈ GD.collapsedSliceDims := by
  show (0 : Fin 2) ∈ [(0 : Fin 2), 1]; simp
theorem collapsed1 : (1 : Fin 2) ∈ GD.collapsedSliceDims := by
  show (1 : Fin 2) ∈ [(0 : Fin 2), 1]; simp

/-- The gather with one (row, column) pair of start indices per result element reads, at n, the matrix at the pair
    idx[n, 0], idx[n, 1], each read as a signed integer and clamped into [0, 1023]. -/
theorem gather_point {α : Type} (x : S1024x1024.Idx → α) (idx : IVec S4194304x2 32) (n : Fin 4194304) :
    Host.gather GD x idx (ix1 n)
      = x (ix2 (⟨min (idx (ix2 n (0 : Fin 2))).toInt.toNat 1023, by omega⟩ : Fin 1024)
            (⟨min (idx (ix2 n (1 : Fin 2))).toInt.toNat 1023, by omega⟩ : Fin 1024)) := by
  unfold Host.gather
  congr 1
  funext a
  refine Fin.ext ?_
  match a with
  | ⟨0, _⟩ =>
    show GD.start (ix1 n) idx 0 + GD.batchCoord (ix1 n) 0 + GD.offCoord (ix1 n) 0 = _
    rw [GatherDims.batchCoord_eq_zero _ _ _ List.not_mem_nil,
      GatherDims.offCoord_eq_zero _ _ _ (fun h => ((GatherDims.mem_sKept _ _).mp h).1 collapsed0)]
    simp only [Nat.add_zero]
    unfold GatherDims.start
    rw [dif_pos start_map0]
    have hsi : GD.siIdx (ix1 n) ⟨List.idxOf (0 : Fin 2) GD.startIndexMap, List.idxOf_lt_length_iff.2 start_map0⟩ = ix2 n (0 : Fin 2) := by
      funext b; refine Fin.ext ?_
      match b with
      | ⟨0, _⟩ => rfl
      | ⟨1, _⟩ => rfl
    rw [hsi]
    rfl
  | ⟨1, _⟩ =>
    show GD.start (ix1 n) idx 1 + GD.batchCoord (ix1 n) 1 + GD.offCoord (ix1 n) 1 = _
    rw [GatherDims.batchCoord_eq_zero _ _ _ List.not_mem_nil,
      GatherDims.offCoord_eq_zero _ _ _ (fun h => ((GatherDims.mem_sKept _ _).mp h).1 collapsed1)]
    simp only [Nat.add_zero]
    unfold GatherDims.start
    rw [dif_pos start_map1]
    have hsi : GD.siIdx (ix1 n) ⟨List.idxOf (1 : Fin 2) GD.startIndexMap, List.idxOf_lt_length_iff.2 start_map1⟩ = ix2 n (1 : Fin 2) := by
      funext b; refine Fin.ext ?_
      match b with
      | ⟨0, _⟩ => rfl
      | ⟨1, _⟩ => rfl
    rw [hsi]
    rfl

/-! ## Joining two index columns, and widening a vector to a column -/

theorem concat_left {α : Type} (a b : S4194304x1.Idx → α) (n : Fin 4194304) :
    concatenate S4194304x2 1 [⟨S4194304x1, a⟩, ⟨S4194304x1, b⟩] concatenates_S4194304x1_S4194304x1_S4194304x2_d1 (ix2 n (0 : Fin 2))
      = a (ix2 n (0 : Fin 1)) :=
  concatenate_pair_apply_left 1 a b _ (ix2 n (0 : Fin 2)) rfl (ix2 n (0 : Fin 1))
    (fun b => by match b with | ⟨0, _⟩ => rfl | ⟨1, _⟩ => rfl)

theorem concat_right {α : Type} (a b : S4194304x1.Idx → α) (n : Fin 4194304) :
    concatenate S4194304x2 1 [⟨S4194304x1, a⟩, ⟨S4194304x1, b⟩] concatenates_S4194304x1_S4194304x1_S4194304x2_d1 (ix2 n (1 : Fin 2))
      = b (ix2 n (0 : Fin 1)) :=
  concatenate_pair_apply_right 1 a b _ (ix2 n (1 : Fin 2)) rfl rfl (ix2 n (0 : Fin 1))
    (fun b hb => by match b with | ⟨0, _⟩ => rfl | ⟨1, _⟩ => exact absurd rfl hb) rfl

/-! ## The four bounds as scalars -/

theorem scalar_of_1x1 {α : Type} (v : S1x1.Idx → α) (j : S_.Idx) :
    shapeCast S_ v shapeCasts_S1x1_S_ j = v (ix2 (0 : Fin 1) (0 : Fin 1)) :=
  shapeCast_apply v shapeCasts_S1x1_S_ j _ (by
    rw [Shape.rowMajor_val_two]
    have h := (S_.rowMajor j).isLt
    have e : S_.numel = 1 := by decide
    show 0 * 1 + 0 = _
    omega)

theorem v4_at (x2 : S2x2.Idx → EReal) (j : S_.Idx) : val_main_v4 (F := Ideal) x2 j = x2 (ix2 (0 : Fin 2) (0 : Fin 2)) := by
  unfold val_main_v4
  rw [scalar_of_1x1, val_main_v3_apply]
  exact congrArg x2 (funext fun a => Fin.ext (by match a with | ⟨0, _⟩ => rfl | ⟨1, _⟩ => rfl))

theorem v10_at (x2 : S2x2.Idx → EReal) (j : S_.Idx) : val_main_v10 (F := Ideal) x2 j = x2 (ix2 (0 : Fin 2) (1 : Fin 2)) := by
  unfold val_main_v10
  rw [scalar_of_1x1, val_main_v9_apply]
  exact congrArg x2 (funext fun a => Fin.ext (by match a with | ⟨0, _⟩ => rfl | ⟨1, _⟩ => rfl))
theorem v12_at (x2 : S2x2.Idx → EReal) (j : S_.Idx) : val_main_v12 (F := Ideal) x2 j = x2 (ix2 (0 : Fin 2) (0 : Fin 2)) := by
  unfold val_main_v12
  rw [scalar_of_1x1, val_main_v11_apply]
  exact congrArg x2 (funext fun a => Fin.ext (by match a with | ⟨0, _⟩ => rfl | ⟨1, _⟩ => rfl))
theorem v20_at (x2 : S2x2.Idx → EReal) (j : S_.Idx) : val_main_v20 (F := Ideal) x2 j = x2 (ix2 (1 : Fin 2) (0 : Fin 2)) := by
  unfold val_main_v20
  rw [scalar_of_1x1, val_main_v19_apply]
  exact congrArg x2 (funext fun a => Fin.ext (by match a with | ⟨0, _⟩ => rfl | ⟨1, _⟩ => rfl))
theorem v26_at (x2 : S2x2.Idx → EReal) (j : S_.Idx) : val_main_v26 (F := Ideal) x2 j = x2 (ix2 (1 : Fin 2) (1 : Fin 2)) := by
  unfold val_main_v26
  rw [scalar_of_1x1, val_main_v25_apply]
  exact congrArg x2 (funext fun a => Fin.ext (by match a with | ⟨0, _⟩ => rfl | ⟨1, _⟩ => rfl))
theorem v28_at (x2 : S2x2.Idx → EReal) (j : S_.Idx) : val_main_v28 (F := Ideal) x2 j = x2 (ix2 (1 : Fin 2) (0 : Fin 2)) := by
  unfold val_main_v28
  rw [scalar_of_1x1, val_main_v27_apply]
  exact congrArg x2 (funext fun a => Fin.ext (by match a with | ⟨0, _⟩ => rfl | ⟨1, _⟩ => rfl))

/-! ## The two coordinates of a query -/

theorem col0_idx (n : Fin 4194304) : idx_main_v1 (idx_main_v2 (ix1 n)) = ix2 n (0 : Fin 2) :=
  funext fun a => Fin.ext (by match a with | ⟨0, _⟩ => exact Nat.div_one _ | ⟨1, _⟩ => rfl)
theorem col1_idx (n : Fin 4194304) : idx_main_v17 (idx_main_v18 (ix1 n)) = ix2 n (1 : Fin 2) :=
  funext fun a => Fin.ext (by match a with | ⟨0, _⟩ => exact Nat.div_one _ | ⟨1, _⟩ => rfl)

theorem qy_at (x0 : S4194304x2.Idx → EReal) (x2 : S2x2.Idx → EReal) (n : Fin 4194304) :
    val_main_v15 (F := Ideal) x0 x2 (ix1 n)
      = coordQ (x0 (ix2 n (0 : Fin 2))) (x2 (ix2 (0 : Fin 2) (0 : Fin 2))) (x2 (ix2 (0 : Fin 2) (1 : Fin 2))) := by
  simp only [val_main_v15_apply, val_main_v8_apply, val_main_v7_apply, val_main_v0_apply, val_main_cst_apply,
    val_main_cst_0_apply, val_main_v6_apply, val_main_v2_apply, val_main_v1_apply, val_main_v5_apply, v4_at,
    val_main_v14_apply, val_main_v13_apply, v10_at, v12_at, col0_idx,
    Ideal.hostDivf_def, Ideal.mulf_def, Ideal.subf_def, Ideal.ofBits_def, lit_1024_sub_one]
  rfl

theorem qx_at (x0 : S4194304x2.Idx → EReal) (x2 : S2x2.Idx → EReal) (n : Fin 4194304) :
    val_main_v31 (F := Ideal) x0 x2 (ix1 n)
      = coordQ (x0 (ix2 n (1 : Fin 2))) (x2 (ix2 (1 : Fin 2) (0 : Fin 2))) (x2 (ix2 (1 : Fin 2) (1 : Fin 2))) := by
  simp only [val_main_v31_apply, val_main_v24_apply, val_main_v23_apply, val_main_v16_apply, val_main_cst_1_apply,
    val_main_cst_2_apply, val_main_v22_apply, val_main_v18_apply, val_main_v17_apply, val_main_v21_apply, v20_at,
    val_main_v30_apply, val_main_v29_apply, v26_at, v28_at, col1_idx,
    Ideal.hostDivf_def, Ideal.mulf_def, Ideal.subf_def, Ideal.ofBits_def, lit_1024_sub_one]
  rfl

/-! ## The cell and the weight of each coordinate, as the reference computes them -/

theorem v33_at (x0 : S4194304x2.Idx → EReal) (x2 : S2x2.Idx → EReal) (i : S4194304.Idx) :
    val_main_v33 (F := Ideal) x0 x2 i = cellF (val_main_v15 (F := Ideal) x0 x2 i) := by
  simp only [val_main_v33_apply, val_main_call0_v4_apply, val_main_call0_v3_apply, val_main_cst_4_apply,
    val_main_call0_v2_apply, val_main_call0_v1_apply, val_main_call0_v0_apply, val_main_cst_3_apply, val_main_v32_apply]
  rfl
theorem v35_at (x0 : S4194304x2.Idx → EReal) (x2 : S2x2.Idx → EReal) (i : S4194304.Idx) :
    val_main_v35 (F := Ideal) x0 x2 i = weight (val_main_v15 (F := Ideal) x0 x2 i) := by
  simp only [val_main_v35_apply, val_main_call1_v4_apply, val_main_call1_v3_apply, val_main_cst_6_apply,
    val_main_call1_v2_apply, val_main_call1_v1_apply, val_main_call1_v0_apply, val_main_cst_5_apply, val_main_v34_apply, v33_at]
  rfl
theorem v36_at (x0 : S4194304x2.Idx → EReal) (x2 : S2x2.Idx → EReal) (i : S4194304.Idx) :
    val_main_v36 (F := Ideal) x0 x2 i = BitVec.ofNat 32 (cellN (val_main_v15 (F := Ideal) x0 x2 i)) := by
  rw [val_main_v36_apply, v33_at, ← cellI_eq]; rfl
theorem v38_at (x0 : S4194304x2.Idx → EReal) (x2 : S2x2.Idx → EReal) (i : S4194304.Idx) :
    val_main_v38 (F := Ideal) x0 x2 i = cellF (val_main_v31 (F := Ideal) x0 x2 i) := by
  simp only [val_main_v38_apply, val_main_call2_v4_apply, val_main_call2_v3_apply, val_main_cst_8_apply,
    val_main_call2_v2_apply, val_main_call2_v1_apply, val_main_call2_v0_apply, val_main_cst_7_apply, val_main_v37_apply]
  rfl
theorem v40_at (x0 : S4194304x2.Idx → EReal) (x2 : S2x2.Idx → EReal) (i : S4194304.Idx) :
    val_main_v40 (F := Ideal) x0 x2 i = weight (val_main_v31 (F := Ideal) x0 x2 i) := by
  simp only [val_main_v40_apply, val_main_call3_v4_apply, val_main_call3_v3_apply, val_main_cst_10_apply,
    val_main_call3_v2_apply, val_main_call3_v1_apply, val_main_call3_v0_apply, val_main_cst_9_apply, val_main_v39_apply, v38_at]
  rfl
theorem v41_at (x0 : S4194304x2.Idx → EReal) (x2 : S2x2.Idx → EReal) (i : S4194304.Idx) :
    val_main_v41 (F := Ideal) x0 x2 i = BitVec.ofNat 32 (cellN (val_main_v31 (F := Ideal) x0 x2 i)) := by
  rw [val_main_v41_apply, v38_at, ← cellI_eq]; rfl

/-! ## The index words: a cell or its successor, left alone by the wrap of negative indices -/

/-- A word below 1024 is not negative, so "add 1024 if negative" returns it. -/
theorem wrap_word (k : ℕ) (hk : k ≤ 1023) :
    Scalar.select (IntOp.cmpi .slt (BitVec.ofNat 32 k) 0#32) (IntOp.addi (BitVec.ofNat 32 k) 1024#32) (BitVec.ofNat 32 k)
      = BitVec.ofNat 32 k := by
  rw [slt_zero_ofNat k hk]; exact select_zero _ _

theorem succ_word (k : ℕ) : IntOp.addi (BitVec.ofNat 32 k) 1#32 = BitVec.ofNat 32 (k + 1) := ofNat_succ k

theorem v46_at (x0 : S4194304x2.Idx → EReal) (x2 : S2x2.Idx → EReal) (i : S4194304.Idx) :
    val_main_v46 (F := Ideal) x0 x2 i = BitVec.ofNat 32 (cellN (val_main_v15 (F := Ideal) x0 x2 i)) := by
  simp only [val_main_c_apply, val_main_v42_apply, val_main_v43_apply, val_main_c_11_apply, val_main_v44_apply, val_main_v45_apply, val_main_v46_apply, val_main_c_12_apply, val_main_v47_apply, val_main_v48_apply, val_main_c_13_apply, val_main_v49_apply, val_main_v50_apply, val_main_v51_apply, val_main_c_14_apply, val_main_v56_apply, val_main_v57_apply, val_main_c_15_apply, val_main_v58_apply, val_main_v59_apply, val_main_c_16_apply, val_main_v60_apply, val_main_v61_apply, val_main_v62_apply, val_main_c_17_apply, val_main_v63_apply, val_main_v64_apply, val_main_c_18_apply, val_main_v65_apply, val_main_v66_apply, val_main_v67_apply, val_main_c_19_apply, val_main_v72_apply, val_main_v73_apply, val_main_c_20_apply, val_main_v74_apply, val_main_v75_apply, val_main_c_21_apply, val_main_v76_apply, val_main_v77_apply, val_main_v78_apply, val_main_c_22_apply, val_main_v79_apply, val_main_v80_apply, val_main_c_23_apply, val_main_v81_apply, val_main_v82_apply, val_main_v83_apply, val_main_c_24_apply, val_main_v88_apply, val_main_v89_apply, val_main_c_25_apply, val_main_v90_apply, val_main_v91_apply, val_main_c_26_apply, val_main_v92_apply, val_main_v93_apply, val_main_c_27_apply, val_main_v94_apply, val_main_v95_apply, val_main_v96_apply, val_main_c_28_apply, val_main_v97_apply, val_main_v98_apply, val_main_c_29_apply, val_main_v99_apply, val_main_v100_apply, val_main_v101_apply, v36_at, v41_at, succ_word]
  exact wrap_word _ (by have := cellN_le (val_main_v15 (F := Ideal) x0 x2 i); omega)
theorem v51_at (x0 : S4194304x2.Idx → EReal) (x2 : S2x2.Idx → EReal) (i : S4194304.Idx) :
    val_main_v51 (F := Ideal) x0 x2 i = BitVec.ofNat 32 (cellN (val_main_v31 (F := Ideal) x0 x2 i)) := by
  simp only [val_main_c_apply, val_main_v42_apply, val_main_v43_apply, val_main_c_11_apply, val_main_v44_apply, val_main_v45_apply, val_main_v46_apply, val_main_c_12_apply, val_main_v47_apply, val_main_v48_apply, val_main_c_13_apply, val_main_v49_apply, val_main_v50_apply, val_main_v51_apply, val_main_c_14_apply, val_main_v56_apply, val_main_v57_apply, val_main_c_15_apply, val_main_v58_apply, val_main_v59_apply, val_main_c_16_apply, val_main_v60_apply, val_main_v61_apply, val_main_v62_apply, val_main_c_17_apply, val_main_v63_apply, val_main_v64_apply, val_main_c_18_apply, val_main_v65_apply, val_main_v66_apply, val_main_v67_apply, val_main_c_19_apply, val_main_v72_apply, val_main_v73_apply, val_main_c_20_apply, val_main_v74_apply, val_main_v75_apply, val_main_c_21_apply, val_main_v76_apply, val_main_v77_apply, val_main_v78_apply, val_main_c_22_apply, val_main_v79_apply, val_main_v80_apply, val_main_c_23_apply, val_main_v81_apply, val_main_v82_apply, val_main_v83_apply, val_main_c_24_apply, val_main_v88_apply, val_main_v89_apply, val_main_c_25_apply, val_main_v90_apply, val_main_v91_apply, val_main_c_26_apply, val_main_v92_apply, val_main_v93_apply, val_main_c_27_apply, val_main_v94_apply, val_main_v95_apply, val_main_v96_apply, val_main_c_28_apply, val_main_v97_apply, val_main_v98_apply, val_main_c_29_apply, val_main_v99_apply, val_main_v100_apply, val_main_v101_apply, v36_at, v41_at, succ_word]
  exact wrap_word _ (by have := cellN_le (val_main_v31 (F := Ideal) x0 x2 i); omega)
theorem v62_at (x0 : S4194304x2.Idx → EReal) (x2 : S2x2.Idx → EReal) (i : S4194304.Idx) :
    val_main_v62 (F := Ideal) x0 x2 i = BitVec.ofNat 32 (cellN (val_main_v15 (F := Ideal) x0 x2 i)) := by
  simp only [val_main_c_apply, val_main_v42_apply, val_main_v43_apply, val_main_c_11_apply, val_main_v44_apply, val_main_v45_apply, val_main_v46_apply, val_main_c_12_apply, val_main_v47_apply, val_main_v48_apply, val_main_c_13_apply, val_main_v49_apply, val_main_v50_apply, val_main_v51_apply, val_main_c_14_apply, val_main_v56_apply, val_main_v57_apply, val_main_c_15_apply, val_main_v58_apply, val_main_v59_apply, val_main_c_16_apply, val_main_v60_apply, val_main_v61_apply, val_main_v62_apply, val_main_c_17_apply, val_main_v63_apply, val_main_v64_apply, val_main_c_18_apply, val_main_v65_apply, val_main_v66_apply, val_main_v67_apply, val_main_c_19_apply, val_main_v72_apply, val_main_v73_apply, val_main_c_20_apply, val_main_v74_apply, val_main_v75_apply, val_main_c_21_apply, val_main_v76_apply, val_main_v77_apply, val_main_v78_apply, val_main_c_22_apply, val_main_v79_apply, val_main_v80_apply, val_main_c_23_apply, val_main_v81_apply, val_main_v82_apply, val_main_v83_apply, val_main_c_24_apply, val_main_v88_apply, val_main_v89_apply, val_main_c_25_apply, val_main_v90_apply, val_main_v91_apply, val_main_c_26_apply, val_main_v92_apply, val_main_v93_apply, val_main_c_27_apply, val_main_v94_apply, val_main_v95_apply, val_main_v96_apply, val_main_c_28_apply, val_main_v97_apply, val_main_v98_apply, val_main_c_29_apply, val_main_v99_apply, val_main_v100_apply, val_main_v101_apply, v36_at, v41_at, succ_word]
  exact wrap_word _ (by have := cellN_le (val_main_v15 (F := Ideal) x0 x2 i); omega)
theorem v67_at (x0 : S4194304x2.Idx → EReal) (x2 : S2x2.Idx → EReal) (i : S4194304.Idx) :
    val_main_v67 (F := Ideal) x0 x2 i = BitVec.ofNat 32 (cellN (val_main_v31 (F := Ideal) x0 x2 i) + 1) := by
  simp only [val_main_c_apply, val_main_v42_apply, val_main_v43_apply, val_main_c_11_apply, val_main_v44_apply, val_main_v45_apply, val_main_v46_apply, val_main_c_12_apply, val_main_v47_apply, val_main_v48_apply, val_main_c_13_apply, val_main_v49_apply, val_main_v50_apply, val_main_v51_apply, val_main_c_14_apply, val_main_v56_apply, val_main_v57_apply, val_main_c_15_apply, val_main_v58_apply, val_main_v59_apply, val_main_c_16_apply, val_main_v60_apply, val_main_v61_apply, val_main_v62_apply, val_main_c_17_apply, val_main_v63_apply, val_main_v64_apply, val_main_c_18_apply, val_main_v65_apply, val_main_v66_apply, val_main_v67_apply, val_main_c_19_apply, val_main_v72_apply, val_main_v73_apply, val_main_c_20_apply, val_main_v74_apply, val_main_v75_apply, val_main_c_21_apply, val_main_v76_apply, val_main_v77_apply, val_main_v78_apply, val_main_c_22_apply, val_main_v79_apply, val_main_v80_apply, val_main_c_23_apply, val_main_v81_apply, val_main_v82_apply, val_main_v83_apply, val_main_c_24_apply, val_main_v88_apply, val_main_v89_apply, val_main_c_25_apply, val_main_v90_apply, val_main_v91_apply, val_main_c_26_apply, val_main_v92_apply, val_main_v93_apply, val_main_c_27_apply, val_main_v94_apply, val_main_v95_apply, val_main_v96_apply, val_main_c_28_apply, val_main_v97_apply, val_main_v98_apply, val_main_c_29_apply, val_main_v99_apply, val_main_v100_apply, val_main_v101_apply, v36_at, v41_at, succ_word]
  exact wrap_word _ (by have := cellN_le (val_main_v31 (F := Ideal) x0 x2 i); omega)
theorem v78_at (x0 : S4194304x2.Idx → EReal) (x2 : S2x2.Idx → EReal) (i : S4194304.Idx) :
    val_main_v78 (F := Ideal) x0 x2 i = BitVec.ofNat 32 (cellN (val_main_v15 (F := Ideal) x0 x2 i) + 1) := by
  simp only [val_main_c_apply, val_main_v42_apply, val_main_v43_apply, val_main_c_11_apply, val_main_v44_apply, val_main_v45_apply, val_main_v46_apply, val_main_c_12_apply, val_main_v47_apply, val_main_v48_apply, val_main_c_13_apply, val_main_v49_apply, val_main_v50_apply, val_main_v51_apply, val_main_c_14_apply, val_main_v56_apply, val_main_v57_apply, val_main_c_15_apply, val_main_v58_apply, val_main_v59_apply, val_main_c_16_apply, val_main_v60_apply, val_main_v61_apply, val_main_v62_apply, val_main_c_17_apply, val_main_v63_apply, val_main_v64_apply, val_main_c_18_apply, val_main_v65_apply, val_main_v66_apply, val_main_v67_apply, val_main_c_19_apply, val_main_v72_apply, val_main_v73_apply, val_main_c_20_apply, val_main_v74_apply, val_main_v75_apply, val_main_c_21_apply, val_main_v76_apply, val_main_v77_apply, val_main_v78_apply, val_main_c_22_apply, val_main_v79_apply, val_main_v80_apply, val_main_c_23_apply, val_main_v81_apply, val_main_v82_apply, val_main_v83_apply, val_main_c_24_apply, val_main_v88_apply, val_main_v89_apply, val_main_c_25_apply, val_main_v90_apply, val_main_v91_apply, val_main_c_26_apply, val_main_v92_apply, val_main_v93_apply, val_main_c_27_apply, val_main_v94_apply, val_main_v95_apply, val_main_v96_apply, val_main_c_28_apply, val_main_v97_apply, val_main_v98_apply, val_main_c_29_apply, val_main_v99_apply, val_main_v100_apply, val_main_v101_apply, v36_at, v41_at, succ_word]
  exact wrap_word _ (by have := cellN_le (val_main_v15 (F := Ideal) x0 x2 i); omega)
theorem v83_at (x0 : S4194304x2.Idx → EReal) (x2 : S2x2.Idx → EReal) (i : S4194304.Idx) :
    val_main_v83 (F := Ideal) x0 x2 i = BitVec.ofNat 32 (cellN (val_main_v31 (F := Ideal) x0 x2 i)) := by
  simp only [val_main_c_apply, val_main_v42_apply, val_main_v43_apply, val_main_c_11_apply, val_main_v44_apply, val_main_v45_apply, val_main_v46_apply, val_main_c_12_apply, val_main_v47_apply, val_main_v48_apply, val_main_c_13_apply, val_main_v49_apply, val_main_v50_apply, val_main_v51_apply, val_main_c_14_apply, val_main_v56_apply, val_main_v57_apply, val_main_c_15_apply, val_main_v58_apply, val_main_v59_apply, val_main_c_16_apply, val_main_v60_apply, val_main_v61_apply, val_main_v62_apply, val_main_c_17_apply, val_main_v63_apply, val_main_v64_apply, val_main_c_18_apply, val_main_v65_apply, val_main_v66_apply, val_main_v67_apply, val_main_c_19_apply, val_main_v72_apply, val_main_v73_apply, val_main_c_20_apply, val_main_v74_apply, val_main_v75_apply, val_main_c_21_apply, val_main_v76_apply, val_main_v77_apply, val_main_v78_apply, val_main_c_22_apply, val_main_v79_apply, val_main_v80_apply, val_main_c_23_apply, val_main_v81_apply, val_main_v82_apply, val_main_v83_apply, val_main_c_24_apply, val_main_v88_apply, val_main_v89_apply, val_main_c_25_apply, val_main_v90_apply, val_main_v91_apply, val_main_c_26_apply, val_main_v92_apply, val_main_v93_apply, val_main_c_27_apply, val_main_v94_apply, val_main_v95_apply, val_main_v96_apply, val_main_c_28_apply, val_main_v97_apply, val_main_v98_apply, val_main_c_29_apply, val_main_v99_apply, val_main_v100_apply, val_main_v101_apply, v36_at, v41_at, succ_word]
  exact wrap_word _ (by have := cellN_le (val_main_v31 (F := Ideal) x0 x2 i); omega)
theorem v96_at (x0 : S4194304x2.Idx → EReal) (x2 : S2x2.Idx → EReal) (i : S4194304.Idx) :
    val_main_v96 (F := Ideal) x0 x2 i = BitVec.ofNat 32 (cellN (val_main_v15 (F := Ideal) x0 x2 i) + 1) := by
  simp only [val_main_c_apply, val_main_v42_apply, val_main_v43_apply, val_main_c_11_apply, val_main_v44_apply, val_main_v45_apply, val_main_v46_apply, val_main_c_12_apply, val_main_v47_apply, val_main_v48_apply, val_main_c_13_apply, val_main_v49_apply, val_main_v50_apply, val_main_v51_apply, val_main_c_14_apply, val_main_v56_apply, val_main_v57_apply, val_main_c_15_apply, val_main_v58_apply, val_main_v59_apply, val_main_c_16_apply, val_main_v60_apply, val_main_v61_apply, val_main_v62_apply, val_main_c_17_apply, val_main_v63_apply, val_main_v64_apply, val_main_c_18_apply, val_main_v65_apply, val_main_v66_apply, val_main_v67_apply, val_main_c_19_apply, val_main_v72_apply, val_main_v73_apply, val_main_c_20_apply, val_main_v74_apply, val_main_v75_apply, val_main_c_21_apply, val_main_v76_apply, val_main_v77_apply, val_main_v78_apply, val_main_c_22_apply, val_main_v79_apply, val_main_v80_apply, val_main_c_23_apply, val_main_v81_apply, val_main_v82_apply, val_main_v83_apply, val_main_c_24_apply, val_main_v88_apply, val_main_v89_apply, val_main_c_25_apply, val_main_v90_apply, val_main_v91_apply, val_main_c_26_apply, val_main_v92_apply, val_main_v93_apply, val_main_c_27_apply, val_main_v94_apply, val_main_v95_apply, val_main_v96_apply, val_main_c_28_apply, val_main_v97_apply, val_main_v98_apply, val_main_c_29_apply, val_main_v99_apply, val_main_v100_apply, val_main_v101_apply, v36_at, v41_at, succ_word]
  exact wrap_word _ (by have := cellN_le (val_main_v15 (F := Ideal) x0 x2 i); omega)
theorem v101_at (x0 : S4194304x2.Idx → EReal) (x2 : S2x2.Idx → EReal) (i : S4194304.Idx) :
    val_main_v101 (F := Ideal) x0 x2 i = BitVec.ofNat 32 (cellN (val_main_v31 (F := Ideal) x0 x2 i) + 1) := by
  simp only [val_main_c_apply, val_main_v42_apply, val_main_v43_apply, val_main_c_11_apply, val_main_v44_apply, val_main_v45_apply, val_main_v46_apply, val_main_c_12_apply, val_main_v47_apply, val_main_v48_apply, val_main_c_13_apply, val_main_v49_apply, val_main_v50_apply, val_main_v51_apply, val_main_c_14_apply, val_main_v56_apply, val_main_v57_apply, val_main_c_15_apply, val_main_v58_apply, val_main_v59_apply, val_main_c_16_apply, val_main_v60_apply, val_main_v61_apply, val_main_v62_apply, val_main_c_17_apply, val_main_v63_apply, val_main_v64_apply, val_main_c_18_apply, val_main_v65_apply, val_main_v66_apply, val_main_v67_apply, val_main_c_19_apply, val_main_v72_apply, val_main_v73_apply, val_main_c_20_apply, val_main_v74_apply, val_main_v75_apply, val_main_c_21_apply, val_main_v76_apply, val_main_v77_apply, val_main_v78_apply, val_main_c_22_apply, val_main_v79_apply, val_main_v80_apply, val_main_c_23_apply, val_main_v81_apply, val_main_v82_apply, val_main_v83_apply, val_main_c_24_apply, val_main_v88_apply, val_main_v89_apply, val_main_c_25_apply, val_main_v90_apply, val_main_v91_apply, val_main_c_26_apply, val_main_v92_apply, val_main_v93_apply, val_main_c_27_apply, val_main_v94_apply, val_main_v95_apply, val_main_v96_apply, val_main_c_28_apply, val_main_v97_apply, val_main_v98_apply, val_main_c_29_apply, val_main_v99_apply, val_main_v100_apply, val_main_v101_apply, v36_at, v41_at, succ_word]
  exact wrap_word _ (by have := cellN_le (val_main_v31 (F := Ideal) x0 x2 i); omega)

/-! ## The four corners -/

/-- A point gather whose two index words at n are small natural numbers reads that row and that column. -/
theorem gather_words {α : Type} (x : S1024x1024.Idx → α) (idx : IVec S4194304x2 32) (n : Fin 4194304) (ky kx : ℕ)
    (hy : ky ≤ 1023) (hx : kx ≤ 1023)
    (e0 : idx (ix2 n (0 : Fin 2)) = BitVec.ofNat 32 ky) (e1 : idx (ix2 n (1 : Fin 2)) = BitVec.ofNat 32 kx) :
    Host.gather GD x idx (ix1 n) = x (ix2 (⟨ky, by omega⟩ : Fin 1024) (⟨kx, by omega⟩ : Fin 1024)) := by
  rw [gather_point]
  have ey := toInt_ofNat_small ky hy
  have ex := toInt_ofNat_small kx hx
  congr 1; funext a; apply Fin.ext
  match a with
  | ⟨0, _⟩ => show min (idx (ix2 n (0 : Fin 2))).toInt.toNat 1023 = ky; rw [e0, ey]; omega
  | ⟨1, _⟩ => show min (idx (ix2 n (1 : Fin 2))).toInt.toNat 1023 = kx; rw [e1, ex]; omega

theorem v55_at (x0 : S4194304x2.Idx → EReal) (x1 : S1024x1024.Idx → EReal) (x2 : S2x2.Idx → EReal) (n : Fin 4194304) :
    val_main_v55 (F := Ideal) x0 x1 x2 (ix1 n)
      = x1 (ix2 (corner (val_main_v15 (F := Ideal) x0 x2 (ix1 n))) (corner (val_main_v31 (F := Ideal) x0 x2 (ix1 n)))) := by
  unfold val_main_v55
  refine (gather_words x1 _ n (cellN (val_main_v15 (F := Ideal) x0 x2 (ix1 n))) (cellN (val_main_v31 (F := Ideal) x0 x2 (ix1 n)))
    (by have := cellN_le (val_main_v15 (F := Ideal) x0 x2 (ix1 n)); omega)
    (by have := cellN_le (val_main_v31 (F := Ideal) x0 x2 (ix1 n)); omega) ?_ ?_).trans rfl
  · unfold val_main_v54
    rw [concat_left, val_main_v52_apply,
      show idx_main_v52 (ix2 n (0 : Fin 1)) = ix1 n from funext fun a => by match a with | ⟨0, _⟩ => rfl, v46_at]
  · unfold val_main_v54
    rw [concat_right, val_main_v53_apply,
      show idx_main_v53 (ix2 n (0 : Fin 1)) = ix1 n from funext fun a => by match a with | ⟨0, _⟩ => rfl, v51_at]

theorem v71_at (x0 : S4194304x2.Idx → EReal) (x1 : S1024x1024.Idx → EReal) (x2 : S2x2.Idx → EReal) (n : Fin 4194304) :
    val_main_v71 (F := Ideal) x0 x1 x2 (ix1 n)
      = x1 (ix2 (corner (val_main_v15 (F := Ideal) x0 x2 (ix1 n))) (cornerS (val_main_v31 (F := Ideal) x0 x2 (ix1 n)))) := by
  unfold val_main_v71
  refine (gather_words x1 _ n (cellN (val_main_v15 (F := Ideal) x0 x2 (ix1 n))) (cellN (val_main_v31 (F := Ideal) x0 x2 (ix1 n)) + 1)
    (by have := cellN_le (val_main_v15 (F := Ideal) x0 x2 (ix1 n)); omega)
    (by have := cellN_le (val_main_v31 (F := Ideal) x0 x2 (ix1 n)); omega) ?_ ?_).trans rfl
  · unfold val_main_v70
    rw [concat_left, val_main_v68_apply,
      show idx_main_v68 (ix2 n (0 : Fin 1)) = ix1 n from funext fun a => by match a with | ⟨0, _⟩ => rfl, v62_at]
  · unfold val_main_v70
    rw [concat_right, val_main_v69_apply,
      show idx_main_v69 (ix2 n (0 : Fin 1)) = ix1 n from funext fun a => by match a with | ⟨0, _⟩ => rfl, v67_at]

theorem v87_at (x0 : S4194304x2.Idx → EReal) (x1 : S1024x1024.Idx → EReal) (x2 : S2x2.Idx → EReal) (n : Fin 4194304) :
    val_main_v87 (F := Ideal) x0 x1 x2 (ix1 n)
      = x1 (ix2 (cornerS (val_main_v15 (F := Ideal) x0 x2 (ix1 n))) (corner (val_main_v31 (F := Ideal) x0 x2 (ix1 n)))) := by
  unfold val_main_v87
  refine (gather_words x1 _ n (cellN (val_main_v15 (F := Ideal) x0 x2 (ix1 n)) + 1) (cellN (val_main_v31 (F := Ideal) x0 x2 (ix1 n)))
    (by have := cellN_le (val_main_v15 (F := Ideal) x0 x2 (ix1 n)); omega)
    (by have := cellN_le (val_main_v31 (F := Ideal) x0 x2 (ix1 n)); omega) ?_ ?_).trans rfl
  · unfold val_main_v86
    rw [concat_left, val_main_v84_apply,
      show idx_main_v84 (ix2 n (0 : Fin 1)) = ix1 n from funext fun a => by match a with | ⟨0, _⟩ => rfl, v78_at]
  · unfold val_main_v86
    rw [concat_right, val_main_v85_apply,
      show idx_main_v85 (ix2 n (0 : Fin 1)) = ix1 n from funext fun a => by match a with | ⟨0, _⟩ => rfl, v83_at]

theorem v105_at (x0 : S4194304x2.Idx → EReal) (x1 : S1024x1024.Idx → EReal) (x2 : S2x2.Idx → EReal) (n : Fin 4194304) :
    val_main_v105 (F := Ideal) x0 x1 x2 (ix1 n)
      = x1 (ix2 (cornerS (val_main_v15 (F := Ideal) x0 x2 (ix1 n))) (cornerS (val_main_v31 (F := Ideal) x0 x2 (ix1 n)))) := by
  unfold val_main_v105
  refine (gather_words x1 _ n (cellN (val_main_v15 (F := Ideal) x0 x2 (ix1 n)) + 1) (cellN (val_main_v31 (F := Ideal) x0 x2 (ix1 n)) + 1)
    (by have := cellN_le (val_main_v15 (F := Ideal) x0 x2 (ix1 n)); omega)
    (by have := cellN_le (val_main_v31 (F := Ideal) x0 x2 (ix1 n)); omega) ?_ ?_).trans rfl
  · unfold val_main_v104
    rw [concat_left, val_main_v102_apply,
      show idx_main_v102 (ix2 n (0 : Fin 1)) = ix1 n from funext fun a => by match a with | ⟨0, _⟩ => rfl, v96_at]
  · unfold val_main_v104
    rw [concat_right, val_main_v103_apply,
      show idx_main_v103 (ix2 n (0 : Fin 1)) = ix1 n from funext fun a => by match a with | ⟨0, _⟩ => rfl, v101_at]
/-! ## The reference's value for one query -/

theorem v114_at (x0 : S4194304x2.Idx → EReal) (x1 : S1024x1024.Idx → EReal) (x2 : S2x2.Idx → EReal) (n : Fin 4194304) :
    val_main_v114 (F := Ideal) x0 x1 x2 (ix1 n)
      = rowCorners (val_main_v15 (F := Ideal) x0 x2 (ix1 n)) (val_main_v31 (F := Ideal) x0 x2 (ix1 n)) (fun h w => x1 (ix2 h w)) := by
  simp only [val_main_v114_apply, val_main_v113_apply, val_main_v112_apply, val_main_v111_apply, val_main_v110_apply,
    val_main_v109_apply, val_main_v108_apply, val_main_v107_apply, val_main_v106_apply, v55_at, v71_at, v87_at, v105_at,
    v35_at, v40_at, Ideal.addf_def, Ideal.subf_def, Ideal.mulf_def]
  rfl

/-- The reference's result at (0, n, 0): the four-corner interpolation of query n. -/
theorem ref_row (x0 : S4194304x2.Idx → EReal) (x1 : S1024x1024.Idx → EReal) (x2 : S2x2.Idx → EReal) (n : Fin 4194304)
    (u v : Fin 1) :
    val_main_v115 (F := Ideal) x0 x1 x2 (ix3 u n v)
      = rowCorners (coordQ (x0 (ix2 n (0 : Fin 2))) (x2 (ix2 (0 : Fin 2) (0 : Fin 2))) (x2 (ix2 (0 : Fin 2) (1 : Fin 2))))
          (coordQ (x0 (ix2 n (1 : Fin 2))) (x2 (ix2 (1 : Fin 2) (0 : Fin 2))) (x2 (ix2 (1 : Fin 2) (1 : Fin 2))))
          (fun h w => x1 (ix2 h w)) := by
  rw [val_main_v115_apply,
    show idx_main_v115 (ix3 u n v) = ix1 n from funext fun a => by match a with | ⟨0, _⟩ => rfl,
    v114_at, qy_at, qx_at]

end Cert.ReferenceIdeal.Row

end
-- ==== Proof.Finite.lean ====
/-
  What the precondition gives: every entry of the table is a real number.

  The precondition is the conjunction of three tests "every |x| is below +infinity", one per argument array.  The
  middle one, read at an entry of the table, says max x (-x) < +infinity on the extended reals, which excludes both
  infinities: the entry is a real number.  (The queries and the bounds may be anything: clamping makes every cell a
  row of the table and every weight a real number whatever they are.)
-/
import proofs.«117140_j47227460387485_1_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Finite

open Cert.Pre_finite_inputs Idealize.ShloMosaic

variable [Cert.Pre_finite_inputs.Facts]

instance : Subsingleton S_.Idx := ⟨fun a b => funext fun d => d.elim0⟩

/-- An extended real whose absolute value is below +infinity is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    have : Ideal.cmp .olt (max x (-x)) ⊤ = 0#1 := by
      unfold Ideal.cmp; simp [hn]
    rw [this] at h; exact absurd h (by decide)
  induction x using EReal.rec with
  | bot => simp at hlt
  | top => simp at hlt
  | coe r => exact ⟨r, rfl⟩

/-- Under the precondition every entry of the table is a real number. -/
theorem table_real (a0 : FVec Ideal S4194304x2 .f32) (a1 : FVec Ideal S1024x1024 .f32) (a2 : FVec Ideal S2x2 .f32)
    (h : fn (F := Ideal) a0 a1 a2 = fun _ => 1#1) (i : S1024x1024.Idx) : ∃ r : ℝ, a1 i = (r : EReal) := by
  have h0 := congrFun h ValueIdx.ix0
  dsimp only [fn] at h0
  obtain ⟨h8, -⟩ := IntOp.andi_eq_one.1 h0
  obtain ⟨-, h7⟩ := IntOp.andi_eq_one.1 h8
  have hi := Host.reduce_andi_all _ _ _ _ _ h7 i
  exact real_of_abs_lt (a1 i) hi

end Cert.Pre_finite_inputs.Finite

end
-- ==== Proof.lean ====
/-
  Bilinear interpolation of 4,194,304 queries on a 1024 x 1024 table: the kernel against its reference, over the
  extended reals.

  THE KERNEL turns the two gathers of bilinear interpolation into contractions.  For each query it builds a weight row
  over the table's 1024 rows (1 - ay at the cell y0, ay at y0 + 1, zero elsewhere), multiplies the block of weight
  rows into the table on the matrix unit, then multiplies by the analogous weight rows over the columns and sums over
  the lanes.  THE REFERENCE gathers the four corners and blends them: top + (bot - top) ay.

  Both compute the coordinates, the clamped cells and the clamped weights by the same operations of the same
  literals (1023 = 1024 - 1, 1022, 1, 0), and a change of float format (the table is rounded to a narrower format
  before the matrix product) is the identity on extended reals.  What is left is algebra:

    * a cell is a natural number at most 1022 and a weight a real number in [0, 1] WHATEVER the coordinate is (an
      infinity or the junk value of a division by zero included), because both are clamped;
    * a weight row contracted against the table picks the two neighbouring rows:
        sum over h of mask h * g h = (1 - a) * g k + a * g (k + 1)        (zero times anything is zero);
    * on REAL table entries the two arrangements are one polynomial,
        (1-ay)(1-ax) tl + (1-ay) ax tr + ay (1-ax) bl + ay ax br,
      and this step is where the precondition is used: distributing a product over a sum fails at infinities, so the
      table must hold real numbers (the queries and the bounds need not).

  Modules: CellMath (the scalar mathematics), KernelRow (one row of a grid point's block), KernelArray (blocks to
  the array, the host lines around the region, the kernel's run), RefRow (the reference at one query), Finite (the
  precondition at a table entry).  The frames are the generated ones; the idealization rewrote nothing.
-/
import proofs.«117140_j47227460387485_1_alg».proof.Defs
import proofs.«117140_j47227460387485_1_alg».proof.Proof.Gen.Kernel
import proofs.«117140_j47227460387485_1_alg».proof.Proof.Gen.Kernel.Skeleton
import proofs.«117140_j47227460387485_1_alg».proof.Proof.Gen.Kernel.Launch
import proofs.«117140_j47227460387485_1_alg».proof.Proof.Gen.Kernel.Points
import proofs.«117140_j47227460387485_1_alg».proof.Proof.Gen.Kernel.Frame
import proofs.«117140_j47227460387485_1_alg».proof.Proof.Gen.KernelIdeal
import proofs.«117140_j47227460387485_1_alg».proof.Proof.Gen.KernelIdeal.Skeleton
import proofs.«117140_j47227460387485_1_alg».proof.Proof.Gen.KernelIdeal.Launch
import proofs.«117140_j47227460387485_1_alg».proof.Proof.Gen.KernelIdeal.Points
import proofs.«117140_j47227460387485_1_alg».proof.Proof.Gen.KernelIdeal.Frame
import proofs.«117140_j47227460387485_1_alg».proof.Proof.Gen.ReferenceIdeal
import proofs.«117140_j47227460387485_1_alg».proof.Proof.Gen.Pre_finite_inputs
import proofs.«117140_j47227460387485_1_alg».proof.Proof.Gen.ReferenceIdeal.Run
import proofs.«117140_j47227460387485_1_alg».proof.Proof.Gen.ReferenceIdeal.Read
import proofs.«117140_j47227460387485_1_alg».proof.Proof.CellMath
import proofs.«117140_j47227460387485_1_alg».proof.Proof.KernelArray
import proofs.«117140_j47227460387485_1_alg».proof.Proof.RefRow
import proofs.«117140_j47227460387485_1_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's result is the reference's, entry by entry, once the table holds real numbers: at (0, n, 0) the
    masked-sum arrangement against the four-corner arrangement of query n's interpolation. -/
theorem result_eq (m : (ℓ : Loc Cert.KernelIdeal.nD Cert.KernelIdeal.τ Cert.KernelIdeal.sig) → Buf (Elt Ideal) ℓ)
    (c : Dev Cert.KernelIdeal.nD)
    (hreal : ∀ i : Cert.KernelIdeal.S1024x1024.Idx, ∃ r : ℝ,
      (m ((c.tc : Thread Cert.KernelIdeal.nD Cert.KernelIdeal.τ).loc Cert.KernelIdeal.main_arg1) : Cert.KernelIdeal.S1024x1024.Idx → EReal) i = (r : EReal)) :
    Cert.KernelIdeal.Arr.result m c
      = Cert.ReferenceIdeal.Read.val_main_v115 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  funext i
  obtain ⟨u, n, v, rfl⟩ : ∃ (u : Fin 1) (n : Fin 4194304) (v : Fin 1), i = ix3 u n v := ⟨i 0, i 1, i 2, eq_ix3 i⟩
  rw [Cert.KernelIdeal.Arr.result_apply, Cert.ReferenceIdeal.Row.ref_row]
  exact Cert.Bilinear.rowMasked_eq_rowCorners _ _ _ (fun h w => hreal _)

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the same result: the kernel's run leaves the masked-sum interpolation of every query, the
    reference's the four-corner one, and under the precondition the table is real, so the two agree. -/
theorem algebraic : Cert.algebraic_KernelIdeal_ReferenceIdeal := by
  intro m ρ m' ρ' hpre hagree
  refine ⟨fun c => Cert.KernelIdeal.Arr.result m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v115_eq, (hagree c).1, (hagree c).2.1, (hagree c).2.2]
  exact (result_eq m c (fun i => Cert.Pre_finite_inputs.Finite.table_real _ _ _ (hpre c) i)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
